-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x40, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x40, .f32⟩
  | .hbm, ⟨74, _⟩ => ⟨S1700000x1, .f32⟩
  | .hbm, ⟨75, _⟩ => ⟨S1700000x40, .f32⟩
  | .hbm, ⟨76, _⟩ => ⟨S1700000x40, .f32⟩
  | .hbm, ⟨77, _⟩ => ⟨S_, .f32⟩
  | .hbm, ⟨78, _⟩ => ⟨S100000x40, .f32⟩
  | .hbm, ⟨79, _⟩ => ⟨S1700000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 154
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x40, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x40, .f32⟩
  | 115 => ⟨S1700000x1, .f32⟩
  | 116 => ⟨S1700000x40, .f32⟩
  | 117 => ⟨S1700000x40, .f32⟩
  | 118 => ⟨S_, .f32⟩
  | 119 => ⟨S100000x40, .f32⟩
  | 120 => ⟨S1700000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x40, .f32⟩
  | 10 => ⟨S100000x40, .f32⟩
  | 11 => ⟨S_, .f32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x40, .f32⟩
  | 18 => ⟨S100000x40, .f32⟩
  | 19 => ⟨S100000x40, .f32⟩
  | 20 => ⟨S_, .f32⟩
  | 21 => ⟨S100000, .f32⟩
  | 22 => ⟨S100000x1, .f32⟩
  | 23 => ⟨S100000x1, .f32⟩
  | 24 => ⟨S100000x40, .f32⟩
  | 25 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_20 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_22 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_call3_cst : Ref sig .tc := ⟨.hbm, 139, rfl⟩
abbrev main_call3_v0 : Ref sig .tc := ⟨.hbm, 140, rfl⟩
abbrev main_call3_cst_0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_cst_1 : Ref sig .tc := ⟨.hbm, 148, rfl⟩
abbrev main_call3_v7 : Ref sig .tc := ⟨.hbm, 149, rfl⟩
abbrev main_call3_v8 : Ref sig .tc := ⟨.hbm, 150, rfl⟩
abbrev main_call3_v9 : Ref sig .tc := ⟨.hbm, 151, rfl⟩
abbrev main_call3_v10 : Ref sig .tc := ⟨.hbm, 152, rfl⟩
abbrev main_v102 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KRun.lean ====
/-
  The kernel program's run with its result named.  @main is eight segments: three stretches of host
  operations (the edge lists with self loops, the degrees, the symmetric normalisation), the first
  projection x·W1 as a pipelined region, the first aggregation on the host, the region
  relu(agg + b1)·W2, the second aggregation on the host, and the region that adds b2 and takes the
  softmax and then the log-softmax of every row.  Every weakly fair execution ends with every
  unscoped buffer at the contents the segments fold to from the launch memory (`Gen.W8`): here that is
  read at the result buffer as well as at the six arguments.
-/
import proofs.«110715_j6158983102956_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the six argument arrays as launched. -/
theorem run : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Proj1.lean ====
/-
  The first projection.  The region takes the node features x (100000 × 128) ten thousand rows at a time, keeps
  the weights W (128 × 64) whole, and writes to each row block of its result the matrix product of the block of x
  with W (the narrowing of both factors to a shorter float format is the identity on extended reals, and the
  product starts from a zero accumulator).  Entry (r, q) of a block's product is the sum over k of
  x (row, k) · W (k, q) of the array's row  row = 10000 · t + r, so every point writes its block of ONE array:
  the whole product x · W.  The ten blocks tile the result, hence the region leaves exactly x · W there.
-/
import proofs.«110715_j6158983102956_1_alg».proof.Proof.Gen.KernelIdeal.Frame
import proofs.«110715_j6158983102956_1_alg».proof.Proof.LibDot
import Idealize.ShloMosaic.Lib.Pipeline.Value
import Idealize.ShloMosaic.Lib.ValueIdx

set_option maxRecDepth 16384

noncomputable section

namespace Cert.KernelIdeal.Proj1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- x · W, entry by entry: the sum over the 128 features. -/
def xW (x : FVec Ideal S100000x128 .f32) (w : FVec Ideal S128x64 .f32) : FVec Ideal S100000x64 .f32 :=
  fun i => ∑ k : Fin 128, x (ix2 (n0 := 100000) (n1 := 128) (i 0) k) * w (ix2 (n0 := 128) (n1 := 64) k (i 1))

/-- The body's product contracts the second axis of the block with the first axis of the weights and has no batch axis. -/
theorem plain : Cert.LibDot.Plain dot_S10000x128_S128x64_S10000x64_1_0_0_1_n_n where
  hrank := rfl
  hs := rfl
  hl0 := fun j k => by
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  hl1 := fun j k => dot_S10000x128_S128x64_S10000x64_1_0_0_1_n_n.lhsIdx_val_of_single rfl j k
  hr0 := fun j k => dot_S10000x128_S128x64_S10000x64_1_0_0_1_n_n.rhsIdx_val_of_single rfl j k
  hr1 := fun j k => by
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

/-- What the body stores, at entry j of the block: the sum over k of block (j₀, k) · weights (k, j₁). -/
theorem body_apply (x0 : Vec Ideal S10000x128 .f32) (x1 : Vec Ideal S128x64 .f32) (j : S10000x64.Idx) :
    k0_pay1 x0 x1 j = ∑ k : Fin 128, (x0 (ix2 (n0 := 10000) (n1 := 128) (j 0) k) : EReal) * (x1 (ix2 (n0 := 128) (n1 := 64) k (j 1)) : EReal) := by
  obtain ⟨p, q, rfl⟩ : ∃ (p : Fin 10000) (q : Fin 64), j = ix2 p q := ⟨j 0, j 1, eq_ix2 j⟩
  unfold k0_pay1
  exact Cert.LibDot.matmul_ix2 plain none _ _ p q

/-- The printed index maps over the ten grid points: the block of x and the block of the result move together down
    the rows, one block per point; the weights stay. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of x · W of the arrays as the region finds them. -/
theorem block_eq (c : Dev nD) (t : Fin cfg0.N) :
    (dat0 (F := Ideal) V c).flushed 2 t = ((cfg0.win 2).blk t).view.read (Elt Ideal) (xW (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := index_facts t
  funext j
  refine (body_apply (iblk0 V c 0 t) (iblk0 V c 1 t) j).trans ?_
  show _ = xW (V c main_arg0) (V c main_arg2) (((cfg0.win 2).blk t).view.emb j)
  simp only [xW]
  refine Finset.sum_congr rfl fun k _ => ?_
  have h0 : ((cfg0.win 0).blk t).view.emb (ix2 (n0 := 10000) (n1 := 128) (j 0) k)
      = ix2 (n0 := 100000) (n1 := 128) (((cfg0.win 2).blk t).view.emb j 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 (n0 := 128) (n1 := 64) k (j 1))
      = ix2 (n0 := 128) (n1 := 64) k (((cfg0.win 2).blk t).view.emb j 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact congrArg₂ (fun a b : EReal => a * b) (congrArg (V c main_arg0) h0) (congrArg (V c main_arg2) h1)

/-- An index of the result is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r of the result lies in the block of point r / 10000: the blocks tile the array. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := by show _ < grid0.N; rw [N_0]; omega
  obtain ⟨e0, e1, e2, e3, e4, e5⟩ := index_facts ⟨(i 0).val / 10000, hN⟩
  have e5' : win0_2.index ⟨(i 0).val / 10000, hN⟩ (0 : Fin 2) = (i 0).val / 10000 := e5
  refine ⟨⟨(i 0).val / 10000, hN⟩, flush0_2 _, ?_⟩
  rw [mem_block]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 64 ≤ (i 1).val ∧ (i 1).val < win0_2.index ⟨(i 0).val / 10000, hN⟩ (1 : Fin 2) * 64 + 64; omega

/-- THE REGION'S RESULT: the array it writes ends holding x · W of the arrays it found. -/
theorem result (c : Dev nD) : (dat0 (F := Ideal) V c).arrAt 2 cfg0.N = xW (V c main_arg0) (V c main_arg2) :=
  (dat0 V c).arrAt_eq_of_cover 2 _ (fun t _ => block_eq V c t) covered

end Cert.KernelIdeal.Proj1

end
-- ==== Proof.Proj2.lean ====
/-
  The second projection.  The region takes the first aggregation A (100000 × 64) ten thousand rows at a time, the
  bias as one row b (1 × 64) and the weights W (64 × 40) whole, and writes to each row block of its result the
  product of  max (A + b, 0)  — the bias added to every row, then the positive part — with W.  Entry (r, q) of
  a block's result is the sum over k of  max (A (row, k) + b (0, k), 0) · W (k, q)  at the array's row
  row = 10000 · t + r: every point writes its block of one array, and the ten blocks tile the result.
-/
import proofs.«110715_j6158983102956_1_alg».proof.Proof.Gen.KernelIdeal.Frame
import proofs.«110715_j6158983102956_1_alg».proof.Proof.LibDot
import Idealize.ShloMosaic.Lib.Pipeline.Value
import Idealize.ShloMosaic.Lib.ValueIdx
import Idealize.ShloMosaic.Lib.ValueLayout

set_option maxRecDepth 16384

noncomputable section

namespace Cert.KernelIdeal.Proj2

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- max (A + b, 0) · W, entry by entry: the sum over the 64 hidden features. -/
def reluW (a : FVec Ideal S100000x64 .f32) (b : FVec Ideal S1x64 .f32) (w : FVec Ideal S64x40 .f32) : FVec Ideal S100000x40 .f32 :=
  fun i => ∑ k : Fin 64, max (a (ix2 (n0 := 100000) (n1 := 64) (i 0) k) + b (ix2 (n0 := 1) (n1 := 64) (0 : Fin 1) k)) (Ideal.ofBits .f32 0x00000000#32)
    * w (ix2 (n0 := 64) (n1 := 40) k (i 1))

/-- The body's product contracts the second axis of the block with the first axis of the weights and has no batch axis. -/
theorem plain : Cert.LibDot.Plain dot_S10000x64_S64x40_S10000x40_1_0_0_1_n_n where
  hrank := rfl
  hs := rfl
  hl0 := fun j k => by
    unfold DotDims.lhsIdx
    rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
    rfl
  hl1 := fun j k => dot_S10000x64_S64x40_S10000x40_1_0_0_1_n_n.lhsIdx_val_of_single rfl j k
  hr0 := fun j k => dot_S10000x64_S64x40_S10000x40_1_0_0_1_n_n.rhsIdx_val_of_single rfl j k
  hr1 := fun j k => by
    unfold DotDims.rhsIdx
    rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
    rfl

/-- What the body stores, at entry j of the block. -/
theorem body_apply (x0 : Vec Ideal S10000x64 .f32) (x1 : Vec Ideal S1x64 .f32) (x2 : Vec Ideal S64x40 .f32) (j : S10000x40.Idx) :
    k1_pay1 x0 x1 x2 j = ∑ k : Fin 64, max ((x0 (ix2 (n0 := 10000) (n1 := 64) (j 0) k) : EReal) + (x1 (ix2 (n0 := 1) (n1 := 64) (0 : Fin 1) k) : EReal)) (Ideal.ofBits .f32 0x00000000#32)
      * (x2 (ix2 (n0 := 64) (n1 := 40) k (j 1)) : EReal) := by
  obtain ⟨p, q, rfl⟩ : ∃ (p : Fin 10000) (q : Fin 40), j = ix2 p q := ⟨j 0, j 1, eq_ix2 j⟩
  unfold k1_pay1
  refine (Cert.LibDot.matmul_ix2 plain none _ _ p q).trans ?_
  refine Finset.sum_congr rfl fun k _ => ?_
  have hA : shapeCast S10000x64 x0 shapeCasts_S10000x64_S10000x64 (ix2 (n0 := 10000) (n1 := 64) p k) = x0 (ix2 (n0 := 10000) (n1 := 64) p k) :=
    congrFun (shapeCast_self x0 shapeCasts_S10000x64_S10000x64) _
  have hB : broadcastTo S10000x64 (shapeCast S1x64 x1 shapeCasts_S1x64_S1x64) broadcasts_S1x64_S10000x64 (ix2 (n0 := 10000) (n1 := 64) p k)
      = x1 (ix2 (n0 := 1) (n1 := 64) (0 : Fin 1) k) :=
    (broadcastTo_1b_ab_apply (shapeCast S1x64 x1 shapeCasts_S1x64_S1x64) broadcasts_S1x64_S10000x64 p k).trans
      (congrFun (shapeCast_self x1 shapeCasts_S1x64_S1x64) _)
  exact congrArg₂ (fun a b : EReal => max (a + b) (Ideal.ofBits .f32 0x00000000#32) * (x2 (ix2 (n0 := 64) (n1 := 40) k q) : EReal)) hA hB

/-- The printed index maps over the ten grid points: the block of A and the block of the result move together down
    the rows, one block per point; the bias row and the weights stay. -/
theorem index_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) = t.val :=
  (by decide +kernel : ∀ t : Fin grid1.N, _)

/-- What point t writes back is block t of max (A + b, 0) · W of the arrays as the region finds them. -/
theorem block_eq (c : Dev nD) (t : Fin cfg1.N) :
    (dat1 (F := Ideal) V c).flushed 3 t = ((cfg1.win 3).blk t).view.read (Elt Ideal) (reluW (V c main_v43) (V c main_v44) (V c main_arg4)) := by
  show (cfg1.win 3).cut (grid1.coords t) ((dat1 V c).after 3 t) = _
  rw [after1_3]
  unfold out1_3
  rw [View.canon_unit_zero origin]
  simp only [View.ld_unit_zero (S := S10000x64) origin, View.ld_unit_zero (S := S1x64) origin, View.ld_unit_zero (S := S64x40) origin]
  obtain ⟨e0, e1, e2, e3, e4, e5, e6, e7⟩ := index_facts t
  funext j
  refine (body_apply (iblk1 V c 0 t) (iblk1 V c 1 t) (iblk1 V c 2 t) j).trans ?_
  show _ = reluW (V c main_v43) (V c main_v44) (V c main_arg4) (((cfg1.win 3).blk t).view.emb j)
  simp only [reluW]
  refine Finset.sum_congr rfl fun k _ => ?_
  have h0 : ((cfg1.win 0).blk t).view.emb (ix2 (n0 := 10000) (n1 := 64) (j 0) k)
      = ix2 (n0 := 100000) (n1 := 64) (((cfg1.win 3).blk t).view.emb j 0) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have h1 : ((cfg1.win 1).blk t).view.emb (ix2 (n0 := 1) (n1 := 64) (0 : Fin 1) k)
      = ix2 (n0 := 1) (n1 := 64) (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 (n0 := 64) (n1 := 40) k (j 1))
      = ix2 (n0 := 64) (n1 := 40) k (((cfg1.win 3).blk t).view.emb j 1) := by
    funext a; apply Fin.ext
    match a with
    | ⟨0, _⟩ => show win1_2.index t (0 : Fin 2) * 64 + 1 * k.val = k.val; omega
    | ⟨1, _⟩ => show win1_2.index t (1 : Fin 2) * 40 + 1 * (j 1).val = win1_3.index t (1 : Fin 2) * 40 + 1 * (j 1).val; omega
  exact congrArg₂ (fun a b : EReal => a * b)
    (congrArg₂ (fun a b : EReal => max (a + b) (Ideal.ofBits .f32 0x00000000#32)) (congrArg (V c main_v43) h0) (congrArg (V c main_v44) h1))
    (congrArg (V c main_arg4) h2)

/-- An index of the result is in point t's block iff each coordinate is in the block's range on its axis. -/
theorem mem_block (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v45).slice (win1_3.rect t)).set ↔ _
  rw [View.set_slice_whole, Rect.mem_set_unit]
  exact Iff.rfl

/-- Row r of the result lies in the block of point r / 10000: the blocks tile the array. -/
theorem covered (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : (i 0).val / 10000 < cfg1.N := by show _ < grid1.N; rw [N_1]; omega
  obtain ⟨e0, e1, e2, e3, e4, e5, e6, e7⟩ := index_facts ⟨(i 0).val / 10000, hN⟩
  have e7' : win1_3.index ⟨(i 0).val / 10000, hN⟩ (0 : Fin 2) = (i 0).val / 10000 := e7
  refine ⟨⟨(i 0).val / 10000, hN⟩, flush1_3 _, ?_⟩
  rw [mem_block]
  intro a
  match a with
  | ⟨0, _⟩ => show win1_3.index ⟨(i 0).val / 10000, hN⟩ (0 : Fin 2) * 10000 ≤ (i 0).val ∧ (i 0).val < win1_3.index ⟨(i 0).val / 10000, hN⟩ (0 : Fin 2) * 10000 + 10000; omega
  | ⟨1, _⟩ => show win1_3.index ⟨(i 0).val / 10000, hN⟩ (1 : Fin 2) * 40 ≤ (i 1).val ∧ (i 1).val < win1_3.index ⟨(i 0).val / 10000, hN⟩ (1 : Fin 2) * 40 + 40; omega

/-- THE REGION'S RESULT: the array it writes ends holding max (A + b, 0) · W of the arrays it found. -/
theorem result (c : Dev nD) : (dat1 (F := Ideal) V c).arrAt 3 cfg1.N = reluW (V c main_v43) (V c main_v44) (V c main_arg4) :=
  (dat1 V c).arrAt_eq_of_cover 3 _ (fun t _ => block_eq V c t) covered

end Cert.KernelIdeal.Proj2

end
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMaxFold.lean ====
/-
  Maxima folded over a finite index set, as both programs' softmax takes them: the fold of `max` over the set,
  starting from some value `b` (for the programs, −∞).  Such a fold lies above its starting value and above
  every entry, and nothing smaller does: it is the least upper bound of `b` and the family.  Two consequences are
  used: taking one more maximum with the starting value changes nothing, whatever that value is; and the fold
  only depends on the family through its values, so it may be re-indexed along a bijection.
-/
import Mathlib.Data.EReal.Basic
import Mathlib.Data.Finset.Fold

namespace Cert.LibMaxFold

variable {α : Type*} [LinearOrder α] {ι : Type*}

/-- A fold of `max` lies above the value it starts from. -/
theorem start_le_fold (s : Finset ι) (b : α) (f : ι → α) : b ≤ s.fold max b f :=
  (Finset.le_fold_max b).mpr (Or.inl le_rfl)

/-- One more maximum with the starting value changes nothing. -/
theorem max_start_fold (s : Finset ι) (b : α) (f : ι → α) : max b (s.fold max b f) = s.fold max b f :=
  max_eq_right (start_le_fold s b f)

/-- The same with the operands in the other order. -/
theorem max_fold_start (s : Finset ι) (b : α) (f : ι → α) : max (s.fold max b f) b = s.fold max b f :=
  max_eq_left (start_le_fold s b f)

/-- Two families with the same values have the same fold. -/
theorem fold_congr (s : Finset ι) (b : α) {f g : ι → α} (h : ∀ i ∈ s, f i = g i) :
    s.fold max b f = s.fold max b g :=
  Finset.fold_congr h

end Cert.LibMaxFold
-- ==== Proof.LibLogSoftmaxLaw.lean ====
/-
  The last step of a log-softmax taken of a softmax, on the extended reals.

  Write v for one row of softmax values, M for their maximum and c = log (∑ₖ exp (vₖ - M)).  One program
  subtracts the whole log-sum-exp at once, vⱼ - (M + c); the other shifts first and subtracts the logarithm
  afterwards, (vⱼ - M) - c.  Over the reals these agree.  On the extended reals -(M + c) = -M - c can fail
  when M and c are opposite infinities, so the two spellings need an argument: no entry of the row is +∞.
  Then M ≠ +∞, every vₖ - M is not +∞, so every exp (vₖ - M) and their finite sum stay below +∞ and c ≠ +∞;
  with M ≠ +∞ and c ≠ +∞ the negation distributes, and associativity of + does the rest.

  That no entry is +∞ holds for every softmax row whatever its logits are: an entry is e / s with
  0 ≤ e ≤ s (a term of a sum of non-negative terms), and such a quotient is never +∞ — by zero it is the
  junk value ⊥ (then e = 0 too), by +∞ it is 0, by a positive real it is a real.
-/
import Mathlib
import Idealize.ShloMosaic.PureOps.Ideal

noncomputable section

namespace Cert.LogSoftmaxLaw

open Idealize.ShloMosaic

/-- The exponential of an extended real is non-negative. -/
theorem exp_nonneg (x : EReal) : 0 ≤ Ideal.exp x := by
  induction x using EReal.rec with
  | bot => exact le_refl _
  | top => exact le_top
  | coe r => exact EReal.coe_nonneg.mpr (Real.exp_nonneg r)

/-- Off +∞ the exponential is not +∞. -/
theorem exp_ne_top {x : EReal} (h : x ≠ ⊤) : Ideal.exp x ≠ ⊤ := by
  induction x using EReal.rec with
  | bot => exact EReal.zero_ne_top
  | top => exact absurd rfl h
  | coe r => exact EReal.coe_ne_top _

/-- Off +∞ the logarithm is not +∞. -/
theorem log_ne_top {x : EReal} (h : x ≠ ⊤) : Ideal.log x ≠ ⊤ := by
  induction x using EReal.rec with
  | bot => exact bot_ne_top
  | top => exact absurd rfl h
  | coe r =>
    show (if r ≤ 0 then (⊥ : EReal) else (Real.log r : EReal)) ≠ ⊤
    split
    · exact bot_ne_top
    · exact EReal.coe_ne_top _

/-- A finite sum of extended reals none of which is +∞ is not +∞. -/
theorem sum_ne_top {ι : Type*} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact (EReal.add_lt_top (h a (Finset.mem_insert_self a s))
      (ih fun i hi => h i (Finset.mem_insert_of_mem hi))).ne

/-- A quotient of a non-negative numerator by something at least as large is never +∞. -/
theorem div_ne_top {x y : EReal} (hx : 0 ≤ x) (hxy : x ≤ y) : Ideal.div x y ≠ ⊤ := by
  unfold Ideal.div
  split
  · rename_i hy
    have hn : ¬ (0 < x) := not_lt.mpr (hy ▸ hxy)
    rw [if_neg hn]; exact bot_ne_top
  · induction y using EReal.rec with
    | bot => exact absurd (le_trans hx hxy) (by simp)
    | top => rw [EReal.inv_top, mul_zero]; exact EReal.zero_ne_top
    | coe r =>
      induction x using EReal.rec with
      | bot => exact absurd hx (by simp)
      | top => exact absurd hxy (by simp)
      | coe s => rw [← EReal.coe_inv, ← EReal.coe_mul]; exact EReal.coe_ne_top _

/-- Below a bound that is not +∞, a value that is not +∞ minus the bound is not +∞. -/
theorem sub_ne_top_of_le {a M : EReal} (ha : a ≠ ⊤) (hM : M ≠ ⊤) (h : a ≤ M) : a - M ≠ ⊤ := by
  induction M using EReal.rec with
  | bot =>
    have : a = ⊥ := le_bot_iff.mp h
    subst this
    rw [sub_eq_add_neg, EReal.bot_add]; exact bot_ne_top
  | top => exact absurd rfl hM
  | coe r =>
    induction a using EReal.rec with
    | bot => rw [sub_eq_add_neg, EReal.bot_add]; exact bot_ne_top
    | top => exact absurd rfl ha
    | coe s => rw [← EReal.coe_sub]; exact EReal.coe_ne_top _

/-- THE LAW: for a row with no entry +∞ and a bound M ≠ +∞ above all of it, subtracting M + log ∑ exp (v - M) at once
    and subtracting M first, the logarithm afterwards, give the same extended real. -/
theorem sub_add_log_sum {ι : Type*} [Fintype ι] (v : ι → EReal) (M : EReal) (hv : ∀ k, v k ≠ ⊤) (hM : M ≠ ⊤)
    (hle : ∀ k, v k ≤ M) (j : ι) :
    v j - (M + Ideal.log (∑ k, Ideal.exp (v k - M))) = (v j - M) - Ideal.log (∑ k, Ideal.exp (v k - M)) := by
  have hc : Ideal.log (∑ k, Ideal.exp (v k - M)) ≠ ⊤ :=
    log_ne_top (sum_ne_top _ _ fun k _ => exp_ne_top (sub_ne_top_of_le (hv k) hM (hle k)))
  rw [sub_eq_add_neg (v j) (M + _), EReal.neg_add (Or.inr hc) (Or.inl hM), sub_eq_add_neg (-M) _, ← add_assoc,
    ← sub_eq_add_neg, ← sub_eq_add_neg]

/-- Every entry of a softmax row — exp (zₖ - m) over the sum of those exponentials, for ANY logits z and shift m — is
    not +∞. -/
theorem softmax_ne_top {ι : Type*} [Fintype ι] (z : ι → EReal) (m : EReal) (k : ι) :
    Ideal.div (Ideal.exp (z k - m)) (∑ l, Ideal.exp (z l - m)) ≠ ⊤ :=
  div_ne_top (exp_nonneg _)
    (Finset.single_le_sum (f := fun l => Ideal.exp (z l - m)) (fun l _ => exp_nonneg _) (Finset.mem_univ k))

/-! ## Rows -/

/-- The maximum of a row, folded from a start value b (a reduction's initial value). -/
def rowMax {n : ℕ} (b : EReal) (z : Fin n → EReal) : EReal := (Finset.univ : Finset (Fin n)).fold max b z

theorem le_rowMax {n : ℕ} (b : EReal) (z : Fin n → EReal) (k : Fin n) : z k ≤ rowMax b z :=
  (Finset.le_fold_max (z k)).mpr (Or.inr ⟨k, Finset.mem_univ k, le_refl _⟩)

theorem rowMax_ne_top {n : ℕ} {b : EReal} {z : Fin n → EReal} (hb : b ≠ ⊤) (hz : ∀ k, z k ≠ ⊤) : rowMax b z ≠ ⊤ :=
  ((Finset.fold_max_lt ⊤).mpr ⟨lt_top_iff_ne_top.mpr hb, fun k _ => lt_top_iff_ne_top.mpr (hz k)⟩).ne

/-- One more maximum with the start value changes nothing: the fold is already above its start. -/
theorem max_start_rowMax {n : ℕ} (b : EReal) (z : Fin n → EReal) : max b (rowMax b z) = rowMax b z :=
  max_eq_right ((Finset.le_fold_max b).mpr (Or.inl (le_refl b)))

/-- The softmax of a row: exp (zₖ - max z) over the sum of those exponentials. -/
def softmaxRow {n : ℕ} (b : EReal) (z : Fin n → EReal) : Fin n → EReal :=
  fun k => Ideal.div (Ideal.exp (z k - rowMax b z)) (∑ l, Ideal.exp (z l - rowMax b z))

theorem softmaxRow_ne_top {n : ℕ} (b : EReal) (z : Fin n → EReal) (k : Fin n) : softmaxRow b z k ≠ ⊤ :=
  softmax_ne_top z (rowMax b z) k

/-- The log-softmax of a row v with the whole log-sum-exp subtracted at once: v - (max v + log ∑ exp (v - max v)). -/
def logSoftmaxOnce {n : ℕ} (b : EReal) (v : Fin n → EReal) (q : Fin n) : EReal :=
  v q - (rowMax b v + Ideal.log (∑ l, Ideal.exp (v l - rowMax b v)))

/-- The log-softmax of a row v shifted first: (v - max v) - log ∑ exp (v - max v). -/
def logSoftmaxShift {n : ℕ} (b : EReal) (v : Fin n → EReal) (q : Fin n) : EReal :=
  (v q - rowMax b v) - Ideal.log (∑ l, Ideal.exp (v l - rowMax b v))

/-- The two spellings agree on a row with no entry +∞, from a start value that is not +∞. -/
theorem once_eq_shift {n : ℕ} {b : EReal} (hb : b ≠ ⊤) (v : Fin n → EReal) (hv : ∀ k, v k ≠ ⊤) (q : Fin n) :
    logSoftmaxOnce b v q = logSoftmaxShift b v q :=
  sub_add_log_sum v (rowMax b v) hv (rowMax_ne_top hb hv) (le_rowMax b v) q

/-- So they agree on every softmax row, whatever the logits. -/
theorem once_eq_shift_softmax {n : ℕ} {b : EReal} (hb : b ≠ ⊤) (z : Fin n → EReal) (q : Fin n) :
    logSoftmaxOnce b (softmaxRow b z) q = logSoftmaxShift b (softmaxRow b z) q :=
  once_eq_shift hb _ (softmaxRow_ne_top b z) q

end Cert.LogSoftmaxLaw

end
-- ==== Proof.LibRowSoftmax.lean ====
/-
  The softmax and the log-softmax of every row of an [a, K] array, spelt as a vector unit spells them — a maximum
  and a sum along the lanes (multi_reduction), each kept as a column [a, 1] and broadcast back along the row — read
  at an entry (p, q):

    rowMaxVec z (p)        = the fold of max over k of z (p, k), from the accumulator's value (the word 0xFF800000, -∞);
    expShift z (p, l)      = exp (z (p, l) - that maximum);
    softmaxVec z (p, l)    = expShift z (p, l) / ∑ₖ expShift z (p, k);
    logSoftmaxVec v (p, q) = v (p, q) - (max of row p of v + log ∑ₖ exp (v (p, k) - that maximum)).

  Each is the row function of the same name (LibLogSoftmaxLaw) applied to row p.  The shape facts the operations carry
  are whatever proofs the printed operations have: they are propositions.
-/
import Idealize.ShloMosaic.PureOps.Ideal.Laws
import Idealize.ShloMosaic.Lib.Pipeline.Value
import Idealize.ShloMosaic.Lib.ValueIdx
import proofs.«110715_j6158983102956_1_alg».proof.Proof.LibRowSum
import proofs.«110715_j6158983102956_1_alg».proof.Proof.LibColumn
import proofs.«110715_j6158983102956_1_alg».proof.Proof.LibMaxFold
import proofs.«110715_j6158983102956_1_alg».proof.Proof.LibLogSoftmaxLaw

noncomputable section

namespace Cert.LibRowSoftmax

open Idealize.ShloMosaic Idealize.ShloMosaic.ValueIdx Cert.LogSoftmaxLaw

variable {a K : ℕ}

/-- The value of the maximum's accumulator word: -∞. -/
abbrev negInf : EReal := Ideal.ofBits .f32 0xFF800000#32

theorem negInf_eq_bot : negInf = ⊥ := by simp [negInf, Ideal.ofBits, Ideal.ieee]

theorem negInf_ne_top : negInf ≠ ⊤ := by rw [negInf_eq_bot]; exact bot_ne_top

/-- The shape facts of a reduction along the lanes kept as a column and broadcast back. -/
structure Side (a K : ℕ) : Prop where
  hr : (⟨2, ![a, K]⟩ : Shape).Reduces [1] ⟨1, ![a]⟩
  hc : (⟨1, ![a]⟩ : Shape).ShapeCasts ⟨2, ![a, 1]⟩
  hb : (⟨2, ![a, 1]⟩ : Shape).Broadcasts ⟨2, ![a, K]⟩

/-- A maximum along the second axis of an [a, K] array, from the word 0xFF800000, read at row r. -/
theorem max_rows (src : FVec Ideal ⟨2, ![a, K]⟩ .f32) (hr : (⟨2, ![a, K]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 hr hφ hacc (ix1 r) = rowMax negInf (fun k => src (ix2 r k)) :=
  (Ideal.multiReduction_maximumf_single src _ hr hφ hacc (ix1 r)).trans
    (Cert.LibMaxFold.fold_congr _ _ fun k _ => congrArg src (idx2_ext _ r k rfl rfl))

/-- The row maxima. -/
def rowMaxVec (s : Side a K) (z : FVec Ideal ⟨2, ![a, K]⟩ .f32) : FVec Ideal ⟨1, ![a]⟩ .f32 :=
  multiReduction .maximumf [1] ⟨1, ![a]⟩ z 0xFF800000#32 s.hr (.inl rfl) rfl

/-- A row statistic kept as a column and broadcast along the rows. -/
def keep (s : Side a K) (m : FVec Ideal ⟨1, ![a]⟩ .f32) : FVec Ideal ⟨2, ![a, K]⟩ .f32 :=
  broadcastTo ⟨2, ![a, K]⟩ (shapeCast ⟨2, ![a, 1]⟩ m s.hc) s.hb

/-- exp (z - row maximum). -/
def expShift (s : Side a K) (z : FVec Ideal ⟨2, ![a, K]⟩ .f32) : FVec Ideal ⟨2, ![a, K]⟩ .f32 :=
  Idealize.ShloMosaic.exp (subf z (keep s (rowMaxVec s z)))

/-- The row sums. -/
def rowSumVec (s : Side a K) (e : FVec Ideal ⟨2, ![a, K]⟩ .f32) : FVec Ideal ⟨1, ![a]⟩ .f32 :=
  multiReduction .add [1] ⟨1, ![a]⟩ e 0x00000000#32 s.hr (.inl rfl) rfl

/-- The softmax of every row. -/
def softmaxVec (s : Side a K) (z : FVec Ideal ⟨2, ![a, K]⟩ .f32) : FVec Ideal ⟨2, ![a, K]⟩ .f32 :=
  divf (expShift s z) (keep s (rowSumVec s (expShift s z)))

/-- The log-softmax of every row, the whole log-sum-exp (a column) subtracted at once. -/
def logSoftmaxVec (s : Side a K) (v : FVec Ideal ⟨2, ![a, K]⟩ .f32) : FVec Ideal ⟨2, ![a, K]⟩ .f32 :=
  subf v (broadcastTo ⟨2, ![a, K]⟩
    (addf (shapeCast ⟨2, ![a, 1]⟩ (rowMaxVec s v) s.hc)
      (Idealize.ShloMosaic.log (shapeCast ⟨2, ![a, 1]⟩ (rowSumVec s (expShift s v)) s.hc))) s.hb)

theorem rowMaxVec_apply (s : Side a K) (z : FVec Ideal ⟨2, ![a, K]⟩ .f32) (p : Fin a) :
    rowMaxVec s z (ix1 p) = rowMax negInf (fun k => z (ix2 p k)) :=
  max_rows z s.hr (.inl rfl) rfl p

theorem keep_apply (s : Side a K) (m : FVec Ideal ⟨1, ![a]⟩ .f32) (p : Fin a) (l : Fin K) :
    keep s m (ix2 p l) = m (ix1 p) :=
  (broadcastTo_a1_ab_apply (shapeCast ⟨2, ![a, 1]⟩ m s.hc) s.hb p l).trans (shapeCast_a_a1_apply m s.hc p 0)

theorem expShift_apply (s : Side a K) (z : FVec Ideal ⟨2, ![a, K]⟩ .f32) (p : Fin a) (l : Fin K) :
    expShift s z (ix2 p l) = Ideal.exp (z (ix2 p l) - rowMax negInf (fun k => z (ix2 p k))) :=
  congrArg (fun t : EReal => Ideal.exp (z (ix2 p l) - t)) ((keep_apply s (rowMaxVec s z) p l).trans (rowMaxVec_apply s z p))

theorem rowSumVec_apply (s : Side a K) (e : FVec Ideal ⟨2, ![a, K]⟩ .f32) (p : Fin a) :
    rowSumVec s e (ix1 p) = ∑ k : Fin K, e (ix2 p k) :=
  multiReduction_add_rows_apply e s.hr (.inl rfl) rfl p

theorem sum_expShift (s : Side a K) (z : FVec Ideal ⟨2, ![a, K]⟩ .f32) (p : Fin a) :
    rowSumVec s (expShift s z) (ix1 p) = ∑ k : Fin K, Ideal.exp (z (ix2 p k) - rowMax negInf (fun k => z (ix2 p k))) :=
  (rowSumVec_apply s (expShift s z) p).trans (Finset.sum_congr rfl fun k _ => expShift_apply s z p k)

/-- The softmax vector at (p, l) is the softmax of row p at l. -/
theorem softmaxVec_apply (s : Side a K) (z : FVec Ideal ⟨2, ![a, K]⟩ .f32) (p : Fin a) (l : Fin K) :
    softmaxVec s z (ix2 p l) = softmaxRow negInf (fun k => z (ix2 p k)) l :=
  congrArg₂ Ideal.div (expShift_apply s z p l) ((keep_apply s (rowSumVec s (expShift s z)) p l).trans (sum_expShift s z p))

/-- The log-softmax vector at (p, q) is the log-softmax (log-sum-exp subtracted at once) of row p at q. -/
theorem logSoftmaxVec_apply (s : Side a K) (v : FVec Ideal ⟨2, ![a, K]⟩ .f32) (p : Fin a) (q : Fin K) :
    logSoftmaxVec s v (ix2 p q) = logSoftmaxOnce negInf (fun k => v (ix2 p k)) q := by
  have h1 : (addf (shapeCast ⟨2, ![a, 1]⟩ (rowMaxVec s v) s.hc)
        (Idealize.ShloMosaic.log (shapeCast ⟨2, ![a, 1]⟩ (rowSumVec s (expShift s v)) s.hc))) (ix2 p (0 : Fin 1))
      = rowMax negInf (fun k => v (ix2 p k))
        + Ideal.log (∑ k : Fin K, Ideal.exp (v (ix2 p k) - rowMax negInf (fun k => v (ix2 p k)))) :=
    congrArg₂ (fun x y : EReal => x + Ideal.log y)
      ((shapeCast_a_a1_apply (rowMaxVec s v) s.hc p 0).trans (rowMaxVec_apply s v p))
      ((shapeCast_a_a1_apply (rowSumVec s (expShift s v)) s.hc p 0).trans (sum_expShift s v p))
  exact congrArg (fun t : EReal => v (ix2 p q) - t) ((broadcastTo_a1_ab_apply _ s.hb p q).trans h1)

end Cert.LibRowSoftmax

end
-- ==== Proof.Lsm.lean ====
/-
  The last region.  It takes the second aggregation A (100000 × 40) ten thousand rows at a time and the bias as one
  row b (1 × 40), and writes to each row block, row by row: with z = A + b (the bias added to every row), the softmax
  s of the row z — exp (z - max z) over the sum of those exponentials — and then the log-softmax of the row s with the
  whole log-sum-exp subtracted at once, s - (max s + log ∑ exp (s - max s)).  An entry of the result depends on its
  own row of A only, so every point writes its block of one array, and the ten blocks tile the result.
-/
import proofs.«110715_j6158983102956_1_alg».proof.Proof.Gen.KernelIdeal.Frame
import proofs.«110715_j6158983102956_1_alg».proof.Proof.LibRowSoftmax
import Idealize.ShloMosaic.Lib.Pipeline.Value
import Idealize.ShloMosaic.Lib.ValueIdx
import Idealize.ShloMosaic.Lib.ValueLayout

set_option maxRecDepth 16384

noncomputable section

namespace Cert.KernelIdeal.Lsm

open Idealize.ShloMosaic Idealize.ShloMosaic.TcCoe Idealize.SL.Sem Idealize.ShloMosaic.ValueIdx
open Idealize.ShloMosaic.Pipeline (Dat Cfg Window)
open Cert.KernelIdeal Cert.KernelIdeal.Gen
open Cert.LogSoftmaxLaw Cert.LibRowSoftmax

variable (V : (c : Dev nD) → (b : Ref sig .tc) → Buf (Elt Ideal) ((c : Thread nD τ).loc b))

theorem origin : (![0, 0] : Fin 2 → Nat) = fun _ => 0 := funext fun a => by fin_cases a <;> rfl

/-- Row by row: the log-softmax (log-sum-exp subtracted at once) of the softmax of the row A + b. -/
def lsm (a : FVec Ideal S100000x40 .f32) (b : FVec Ideal S1x40 .f32) : FVec Ideal S100000x40 .f32 :=
  fun i => logSoftmaxOnce negInf
    (softmaxRow negInf (fun l : Fin 40 => a (ix2 (n0 := 100000) (n1 := 40) (i 0) l) + b (ix2 (n0 := 1) (n1 := 40) (0 : Fin 1) l))) (i 1)

/-- The shape facts of the body's four lane reductions and their keepdims broadcasts. -/
theorem side : Side 10000 40 := ⟨reduces_S10000x40_S10000, shapeCasts_S10000_S10000x1, broadcasts_S10000x1_S10000x40⟩

/-- The body's stored value is the log-softmax vector of the softmax vector of block + bias row. -/
theorem body_eq (x0 : Vec Ideal S10000x40 .f32) (x1 : Vec Ideal S1x40 .f32) :
    k2_pay1 x0 x1 = logSoftmaxVec side (softmaxVec side
      (addf (shapeCast S10000x40 x0 shapeCasts_S10000x40_S10000x40)
        (broadcastTo S10000x40 (shapeCast S1x40 x1 shapeCasts_S1x40_S1x40) broadcasts_S1x40_S10000x40))) := rfl

/-- What the body stores, at entry j of the block. -/
theorem body_apply (x0 : Vec Ideal S10000x40 .f32) (x1 : Vec Ideal S1x40 .f32) (j : S10000x40.Idx) :
    k2_pay1 x0 x1 j = logSoftmaxOnce negInf
      (softmaxRow negInf (fun l : Fin 40 => (x0 (ix2 (n0 := 10000) (n1 := 40) (j 0) l) : EReal) + (x1 (ix2 (n0 := 1) (n1 := 40) (0 : Fin 1) l) : EReal))) (j 1) := by
  obtain ⟨p, q, rfl⟩ : ∃ (p : Fin 10000) (q : Fin 40), j = ix2 p q := ⟨j 0, j 1, eq_ix2 j⟩
  refine (congrFun (body_eq x0 x1) (ix2 p q)).trans ?_
  refine (logSoftmaxVec_apply side _ p q).trans ?_
  refine congrArg (fun v : Fin 40 → EReal => logSoftmaxOnce negInf v q) (funext fun l => ?_)
  refine (softmaxVec_apply side _ p l).trans ?_
  refine congrArg (fun z : Fin 40 → EReal => softmaxRow negInf z l) (funext fun k => ?_)
  exact congrArg₂ (fun a b : EReal => a + b)
    (congrFun (shapeCast_self x0 shapeCasts_S10000x40_S10000x40) _)
    ((broadcastTo_1b_ab_apply (shapeCast S1x40 x1 shapeCasts_S1x40_S1x40) broadcasts_S1x40_S10000x40 p k).trans
      (congrFun (shapeCast_self x1 shapeCasts_S1x40_S1x40) _))

/-- The printed index maps over the ten grid points: the block of A and the block of the result move together down
    the rows, one block per point; the bias row stays. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point t writes back is block t of the row-wise result of the arrays as the region finds them. -/
theorem block_eq (c : Dev nD) (t : Fin cfg2.N) :
    (dat2 (F := Ideal) V c).flushed 2 t = ((cfg2.win 2).blk t).view.read (Elt Ideal) (lsm (V c main_v58) (V c main_v59)) := by
  show (cfg2.win 2).cut (grid2.coords t) ((dat2 V c).after 2 t) = _
  rw [after2_2]
  unfold out2_2
  rw [View.canon_unit_zero origin]
  simp only [View.ld_unit_zero (S := S10000x40) origin, View.ld_unit_zero (S := S1x40) origin]
  obtain ⟨e0, e1, e2, e3, e4, e5⟩ := index_facts t
  funext j
  refine (body_apply (iblk2 V c 0 t) (iblk2 V c 1 t) j).trans ?_
  show _ = lsm (V c main_v58) (V c main_v59) (((cfg2.win 2).blk t).view.emb j)
  simp only [lsm]
  have h0 : ∀ l : Fin 40, ((cfg2.win 0).blk t).view.emb (ix2 (n0 := 10000) (n1 := 40) (j 0) l)
      = ix2 (n0 := 100000) (n1 := 40) (((cfg2.win 2).blk t).view.emb j 0) l := fun l => by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 40 + 1 * l.val = l.val; omega
  have h1 : ∀ l : Fin 40, ((cfg2.win 1).blk t).view.emb (ix2 (n0 := 1) (n1 := 40) (0 : Fin 1) l)
      = ix2 (n0 := 1) (n1 := 40) (0 : Fin 1) l := fun l => by
    funext a; apply Fin.ext
    match a with
    | ⟨0, _⟩ => show win2_1.index t (0 : Fin 2) * 1 + 1 * 0 = 0; omega
    | ⟨1, _⟩ => show win2_1.index t (1 : Fin 2) * 40 + 1 * l.val = l.val; omega
  have hq : (j 1 : Fin 40) = ((cfg2.win 2).blk t).view.emb j 1 :=
    Fin.ext (by show (j 1).val = win2_2.index t (1 : Fin 2) * 40 + 1 * (j 1).val; omega)
  exact congrArg₂ (fun (v : Fin 40 → EReal) (q : Fin 40) => logSoftmaxOnce negInf (softmaxRow negInf v) q)
    (funext fun l => congrArg₂ (fun a b : EReal => a + b) (congrArg (V c main_v58) (h0 l)) (congrArg (V c main_v59) (h1 l))) hq

/-- An index of the result is in point t's block iff each coordinate is in the block's range on its axis. -/
theorem mem_block (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v60).slice (win2_2.rect t)).set ↔ _
  rw [View.set_slice_whole, Rect.mem_set_unit]
  exact Iff.rfl

/-- Row r of the result lies in the block of point r / 10000: the blocks tile the array. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : (i 0).val / 10000 < cfg2.N := by show _ < grid2.N; rw [N_2]; omega
  obtain ⟨e0, e1, e2, e3, e4, e5⟩ := index_facts ⟨(i 0).val / 10000, hN⟩
  have e5' : win2_2.index ⟨(i 0).val / 10000, hN⟩ (0 : Fin 2) = (i 0).val / 10000 := e5
  refine ⟨⟨(i 0).val / 10000, hN⟩, flush2_2 _, ?_⟩
  rw [mem_block]
  intro a
  match a with
  | ⟨0, _⟩ => show win2_2.index ⟨(i 0).val / 10000, hN⟩ (0 : Fin 2) * 10000 ≤ (i 0).val ∧ (i 0).val < win2_2.index ⟨(i 0).val / 10000, hN⟩ (0 : Fin 2) * 10000 + 10000; omega
  | ⟨1, _⟩ => show win2_2.index ⟨(i 0).val / 10000, hN⟩ (1 : Fin 2) * 40 ≤ (i 1).val ∧ (i 1).val < win2_2.index ⟨(i 0).val / 10000, hN⟩ (1 : Fin 2) * 40 + 40; omega

/-- THE REGION'S RESULT: the array it writes ends holding the row-wise result of the arrays it found. -/
theorem result (c : Dev nD) : (dat2 (F := Ideal) V c).arrAt 2 cfg2.N = lsm (V c main_v58) (V c main_v59) :=
  (dat2 V c).arrAt_eq_of_cover 2 _ (fun t _ => block_eq V c t) covered

end Cert.KernelIdeal.Lsm

end
-- ==== Proof.RefSide.lean ====
/-
  The reference's stages at the three places where the kernel program runs a region, as the functions the regions
  leave in their result arrays:

    its first dot_general is x·W1, entry by entry the sum over the 128 features;
    its second dot_general, of the positive part of (first aggregation + b1 broadcast over the rows), is
      max (agg + b1, 0)·W2, entry by entry the sum over the 64 hidden features — with the bias read as the one row the
      kernel program reshapes it to;
    its softmax followed by log_softmax is, row by row, the log-softmax of the softmax of (second aggregation + b2).

  In the last one the reference shifts by the row maximum first and subtracts the logarithm afterwards, where the
  kernel subtracts the whole log-sum-exp at once; the two agree on every softmax row (LogSoftmaxLaw).  The
  reference's maxima carry one more maximum with -∞, which a fold from -∞ absorbs.
-/
import proofs.«110715_j6158983102956_1_alg».proof.Proof.RefRead
import proofs.«110715_j6158983102956_1_alg».proof.Proof.Proj1
import proofs.«110715_j6158983102956_1_alg».proof.Proof.Proj2
import proofs.«110715_j6158983102956_1_alg».proof.Proof.Lsm
import Idealize.ShloMosaic.Lib.ValueLayout
import Idealize.ShloMosaic.PureOps.Reduce

set_option maxRecDepth 16384

noncomputable section

namespace Cert.ReferenceIdeal.RefSide

open Idealize.ShloMosaic Idealize.ShloMosaic.ValueIdx
open Cert.ReferenceIdeal Cert.ReferenceIdeal.Gen Cert.ReferenceIdeal.Read
open Cert.LogSoftmaxLaw Cert.LibRowSoftmax

local instance maxComm : Std.Commutative (FloatOps.maximumf (F := Ideal) (φ := .f32)) := ⟨fun a b => max_comm a b⟩
local instance maxAssoc : Std.Associative (FloatOps.maximumf (F := Ideal) (φ := .f32)) := ⟨fun a b c => max_assoc a b c⟩

/-! ## The two products -/

/-- The first dot_general is x·W1. -/
theorem v4_eq (x0 : (⟨S100000x128, .f32⟩ : BufTy).Contents (Elt Ideal)) (x2 : (⟨S128x64, .f32⟩ : BufTy).Contents (Elt Ideal)) :
    val_main_v4 (F := Ideal) x0 x2 = Cert.KernelIdeal.Proj1.xW x0 x2 := by
  funext i
  rw [val_main_v4_apply]
  simp only [Cert.KernelIdeal.Proj1.xW]
  refine Finset.sum_congr rfl fun k _ => ?_
  have hl : lidx_main_v4 i k = ix2 (n0 := 100000) (n1 := 128) (i 0) k :=
    funext fun a => by match a with | ⟨0, _⟩ => rfl | ⟨1, _⟩ => rfl
  have hr : ridx_main_v4 i k = ix2 (n0 := 128) (n1 := 64) k (i 1) :=
    funext fun a => by match a with | ⟨0, _⟩ => rfl | ⟨1, _⟩ => rfl
  rw [hl, hr]

/-- The second dot_general is max (agg + b1, 0)·W2, the bias as the row [1, 64] it reshapes to. -/
theorem v48_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal))
    (hc : (⟨1, ![64]⟩ : Shape).ShapeCasts ⟨2, ![1, 64]⟩) :
    val_main_v48 (F := Ideal) x0 x1 x2 x3 x4
      = Cert.KernelIdeal.Proj2.reluW (val_main_v43 (F := Ideal) x0 x1 x2) (shapeCast ⟨2, ![1, 64]⟩ x3 hc) x4 := by
  funext i
  rw [val_main_v48_apply]
  simp only [Cert.KernelIdeal.Proj2.reluW]
  refine Finset.sum_congr rfl fun k _ => ?_
  have hl : lidx_main_v48 i k = ix2 (n0 := 100000) (n1 := 64) (i 0) k :=
    funext fun a => by match a with | ⟨0, _⟩ => rfl | ⟨1, _⟩ => rfl
  have hr : ridx_main_v48 i k = ix2 (n0 := 64) (n1 := 40) k (i 1) :=
    funext fun a => by match a with | ⟨0, _⟩ => rfl | ⟨1, _⟩ => rfl
  rw [hl, hr]
  have hb : val_main_v45 (F := Ideal) x3 (ix2 (n0 := 100000) (n1 := 64) (i 0) k)
      = shapeCast ⟨2, ![1, 64]⟩ x3 hc (ix2 (n0 := 1) (n1 := 64) (0 : Fin 1) k) :=
    ((val_main_v45_apply x3 _).trans (val_main_v44_apply x3 _)).trans
      ((congrArg x3 (funext fun a => by match a with | ⟨0, _⟩ => rfl)).trans (shapeCast_a_1a_apply x3 hc 0 k).symm)
  have hz : val_main_call1_v0 (F := Ideal) (ix2 (n0 := 100000) (n1 := 64) (i 0) k) = Ideal.ofBits .f32 0x00000000#32 :=
    (val_main_call1_v0_apply _).trans rfl
  rw [val_main_v47_apply, val_main_v46_apply, hb, hz, Ideal.maximumf_def, Ideal.addf_def]

/-! ## The four steps both of the reference's row normalisations take, for any [100000, 40] array y -/

/-- The row maxima: a reduce with a maximum body from -∞, and one more maximum with -∞. -/
def hMax (y : FVec Ideal S100000x40 .f32) : FVec Ideal S100000 .f32 :=
  maximumf (broadcastInDim S100000 ![] bcast_S_S100000 (constant (F := Ideal) S_ .f32 0xFF800000#32))
    (Host.reduce FloatOps.maximumf y (constant (F := Ideal) S_ .f32 0xFF800000#32) reducesTo_S100000x40_S100000_d1 h_S_)

/-- A row statistic kept as a column and broadcast along the rows. -/
def hKeep (v : FVec Ideal S100000 .f32) : FVec Ideal S100000x40 .f32 :=
  broadcastInDim S100000x40 ![0, 1] bcast_S100000x1_S100000x40_0_1 (broadcastInDim S100000x1 ![0] bcast_S100000_S100000x1_0 v)

/-- y minus its row maxima. -/
def hShift (y : FVec Ideal S100000x40 .f32) : FVec Ideal S100000x40 .f32 := subf y (hKeep (hMax y))

/-- exp (y - row maximum). -/
def hExp (y : FVec Ideal S100000x40 .f32) : FVec Ideal S100000x40 .f32 := Host.exp (hShift y)

/-- The row sums of those exponentials, from zero. -/
def hSum (y : FVec Ideal S100000x40 .f32) : FVec Ideal S100000 .f32 :=
  Host.reduceAdd (hExp y) (constant (F := Ideal) S_ .f32 0x00000000#32) reducesTo_S100000x40_S100000_d1 h_S_

theorem hKeep_apply (v : FVec Ideal S100000 .f32) (p : Fin 100000) (l : Fin 40) : hKeep v (ix2 p l) = v (ix1 p) := by
  unfold hKeep
  refine (broadcastInDim_apply _ bcast_S100000x1_S100000x40_0_1 _ (ix2 p l) (ix2 (n0 := 100000) (n1 := 1) p (0 : Fin 1)) (fun a => match a with
    | ⟨0, _⟩ => by show p.val = if (100000 : Nat) = 1 then 0 else p.val; rw [if_neg (by decide)]
    | ⟨1, _⟩ => by show 0 = if (1 : Nat) = 1 then 0 else l.val; rw [if_pos rfl])).trans ?_
  exact broadcastInDim_apply _ bcast_S100000_S100000x1_0 v (ix2 (n0 := 100000) (n1 := 1) p (0 : Fin 1)) (ix1 p) (fun a => match a with
    | ⟨0, _⟩ => by show p.val = if (100000 : Nat) = 1 then 0 else p.val; rw [if_neg (by decide)])

theorem hMax_apply (y : FVec Ideal S100000x40 .f32) (p : Fin 100000) :
    hMax y (ix1 p) = rowMax negInf (fun l : Fin 40 => y (ix2 p l)) := by
  have h1 : broadcastInDim S100000 ![] bcast_S_S100000 (constant (F := Ideal) S_ .f32 0xFF800000#32) (ix1 p) = negInf :=
    (broadcastInDim_apply _ bcast_S_S100000 _ (ix1 p) (fun a => a.elim0) (fun a => a.elim0)).trans rfl
  have h2 : Host.reduce FloatOps.maximumf y (constant (F := Ideal) S_ .f32 0xFF800000#32) reducesTo_S100000x40_S100000_d1 h_S_ (ix1 p)
      = rowMax negInf (fun l : Fin 40 => y (ix2 p l)) :=
    (Host.reduce_eq_fold_single FloatOps.maximumf y _ reducesTo_S100000x40_S100000_d1 (by decide) h_S_ (ix1 p)).trans
      (Cert.LibMaxFold.fold_congr _ _ fun k _ => congrArg y (idx2_ext _ p k rfl rfl))
  unfold hMax
  rw [maximumf_apply, h1, h2]
  exact max_start_rowMax negInf _

theorem hShift_apply (y : FVec Ideal S100000x40 .f32) (p : Fin 100000) (l : Fin 40) :
    hShift y (ix2 p l) = y (ix2 p l) - rowMax negInf (fun l : Fin 40 => y (ix2 p l)) := by
  unfold hShift
  rw [subf_apply, hKeep_apply, hMax_apply]

theorem hExp_apply (y : FVec Ideal S100000x40 .f32) (p : Fin 100000) (l : Fin 40) :
    hExp y (ix2 p l) = Ideal.exp (y (ix2 p l) - rowMax negInf (fun l : Fin 40 => y (ix2 p l))) := by
  unfold hExp
  show FloatOps.hostUnary .exp (hShift y (ix2 p l)) = _
  rw [Ideal.hostUnary_exp_def, hShift_apply]

theorem hSum_apply (y : FVec Ideal S100000x40 .f32) (p : Fin 100000) :
    hSum y (ix1 p) = ∑ l : Fin 40, Ideal.exp (y (ix2 p l) - rowMax negInf (fun l : Fin 40 => y (ix2 p l))) := by
  unfold hSum
  simp only [Host.reduceAdd, Ideal.hostReduceAdd_def]
  rw [Ideal.hostReduceAdd_single reducesTo_S100000x40_S100000_d1 (by decide)]
  have h0 : (constant (F := Ideal) S_ .f32 0x00000000#32) (Shape.Idx.first h_S_) = (0 : EReal) := Ideal.ofBits_zero_f32
  rw [h0, zero_add]
  refine Finset.sum_congr rfl fun k _ => ?_
  exact (congrArg (hExp y) (idx2_ext _ p k rfl rfl)).trans (hExp_apply y p k)

/-- The last region's row function read at (p, q). -/
theorem lsm_apply (a : FVec Ideal ⟨2, ![100000, 40]⟩ .f32) (b : FVec Ideal ⟨2, ![1, 40]⟩ .f32) (p : Fin 100000) (q : Fin 40) :
    Cert.KernelIdeal.Lsm.lsm a b (ix2 p q)
      = logSoftmaxOnce negInf (softmaxRow negInf (fun l : Fin 40 =>
          a (ix2 (n0 := 100000) (n1 := 40) p l) + b (ix2 (n0 := 1) (n1 := 40) (0 : Fin 1) l))) q := rfl

/-! ## The reference's softmax and log_softmax through them -/

section
variable (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal))

theorem v93_eq : val_main_v93 (F := Ideal) x0 x1 x2 x3 x4 x5 = hMax (val_main_v90 (F := Ideal) x0 x1 x2 x3 x4 x5) := rfl
theorem v97_eq : val_main_v97 (F := Ideal) x0 x1 x2 x3 x4 x5 = hExp (val_main_v90 (F := Ideal) x0 x1 x2 x3 x4 x5) := rfl
theorem v100_eq : val_main_v100 (F := Ideal) x0 x1 x2 x3 x4 x5 = hKeep (hSum (val_main_v90 (F := Ideal) x0 x1 x2 x3 x4 x5)) := rfl
theorem c5_eq : val_main_call3_v5 (F := Ideal) x0 x1 x2 x3 x4 x5 = hShift (val_main_v101 (F := Ideal) x0 x1 x2 x3 x4 x5) := rfl
theorem c7_eq : val_main_call3_v7 (F := Ideal) x0 x1 x2 x3 x4 x5 = hSum (val_main_v101 (F := Ideal) x0 x1 x2 x3 x4 x5) := rfl

/-- The logits at (p, l): the second aggregation plus the bias, the bias read as the row [1, 40]. -/
theorem v90_apply (hc : (⟨1, ![40]⟩ : Shape).ShapeCasts ⟨2, ![1, 40]⟩) (p : Fin 100000) (l : Fin 40) :
    val_main_v90 (F := Ideal) x0 x1 x2 x3 x4 x5 (ix2 p l)
      = val_main_v87 (F := Ideal) x0 x1 x2 x3 x4 (ix2 p l) + shapeCast ⟨2, ![1, 40]⟩ x5 hc (ix2 (n0 := 1) (n1 := 40) (0 : Fin 1) l) := by
  have hi : idx_main_v88 (idx_main_v89 (ix2 (n0 := 100000) (n1 := 40) p l)) = ix1 l :=
    funext fun a => by match a with | ⟨0, _⟩ => rfl
  rw [val_main_v90_apply, Ideal.addf_def, val_main_v89_apply, val_main_v88_apply, hi, shapeCast_a_1a_apply x5 hc 0 l]

/-- The reference's softmax at (p, l) is the softmax of row p of the logits. -/
theorem v101_apply (p : Fin 100000) (l : Fin 40) :
    val_main_v101 (F := Ideal) x0 x1 x2 x3 x4 x5 (ix2 p l)
      = softmaxRow negInf (fun k : Fin 40 => val_main_v90 (F := Ideal) x0 x1 x2 x3 x4 x5 (ix2 p k)) l := by
  simp only [softmaxRow]
  rw [val_main_v101_apply, Ideal.hostDivf_def, v97_eq, v100_eq, hExp_apply, hKeep_apply, hSum_apply]

/-- The reference's result at (p, q) is the shift-first log-softmax of row p of its softmax. -/
theorem v102_apply (p : Fin 100000) (q : Fin 40) :
    val_main_v102 (F := Ideal) x0 x1 x2 x3 x4 x5 (ix2 p q)
      = logSoftmaxShift negInf (fun k : Fin 40 => val_main_v101 (F := Ideal) x0 x1 x2 x3 x4 x5 (ix2 p k)) q := by
  have hi : idx_main_call3_v8 (idx_main_call3_v10 (ix2 (n0 := 100000) (n1 := 40) p q)) = ix1 p :=
    funext fun a => by match a with | ⟨0, _⟩ => rfl
  simp only [logSoftmaxShift]
  rw [val_main_v102_apply, Ideal.subf_def, val_main_call3_v10_apply, val_main_call3_v9_apply, Ideal.hostUnary_log_def,
    val_main_call3_v8_apply, hi, c5_eq, c7_eq, hShift_apply, hSum_apply]

/-- THE REFERENCE'S RESULT is, row by row, the log-softmax of the softmax of (second aggregation + b2): the function the
    kernel program's last region leaves in its result array. -/
theorem v102_eq (hc : (⟨1, ![40]⟩ : Shape).ShapeCasts ⟨2, ![1, 40]⟩) :
    val_main_v102 (F := Ideal) x0 x1 x2 x3 x4 x5
      = Cert.KernelIdeal.Lsm.lsm (val_main_v87 (F := Ideal) x0 x1 x2 x3 x4) (shapeCast ⟨2, ![1, 40]⟩ x5 hc) := by
  funext i
  obtain ⟨p, q, rfl⟩ : ∃ (p : Fin 100000) (q : Fin 40), i = ix2 p q := ⟨i 0, i 1, eq_ix2 i⟩
  have hrow : (fun k : Fin 40 => val_main_v101 (F := Ideal) x0 x1 x2 x3 x4 x5 (ix2 p k))
      = softmaxRow negInf (fun k : Fin 40 => val_main_v90 (F := Ideal) x0 x1 x2 x3 x4 x5 (ix2 p k)) :=
    funext fun k => v101_apply x0 x1 x2 x3 x4 x5 p k
  have hz : (fun k : Fin 40 => val_main_v90 (F := Ideal) x0 x1 x2 x3 x4 x5 (ix2 p k))
      = fun k : Fin 40 => val_main_v87 (F := Ideal) x0 x1 x2 x3 x4 (ix2 p k) + shapeCast ⟨2, ![1, 40]⟩ x5 hc (ix2 (n0 := 1) (n1 := 40) (0 : Fin 1) k) :=
    funext fun k => v90_apply x0 x1 x2 x3 x4 x5 hc p k
  rw [v102_apply, hrow, ← once_eq_shift_softmax negInf_ne_top, hz, lsm_apply]

end

end Cert.ReferenceIdeal.RefSide

end
-- ==== Proof.KBridge.lean ====
/-
  The kernel program's result walked back to the launch memory.  The buffer contents at the boundaries of @main's
  eight segments are a fold from the launch memory: a stretch of host operations applies its operations, a region
  replaces its result array by what its write-backs leave and keeps everything else.  Read at the buffers that
  matter, boundary by boundary:

    after the three opening stretches: the sources and the targets with the self loops appended, and the edge
      weights dinv[source] · dinv[target];
    after the first region: x·W1 in its result array (Proj1), the three above untouched;
    after the next stretch: the first aggregation (rows gathered by source, scaled by the weights, summed by target),
      and b1 as one row;
    after the second region: max (aggregation + b1, 0)·W2 (Proj2);
    after the next stretch: the second aggregation, and b2 as one row;
    after the last region: row by row the log-softmax of the softmax of (second aggregation + b2) (Lsm).

  At every step this is the reference's own stage function of the six arguments (the reference computes the edge
  weights a second time; the kernel program reuses them, and the two spellings are one term), so the result buffer
  ends at the reference's last stage.
-/
import proofs.«110715_j6158983102956_1_alg».proof.Proof.KRun
import proofs.«110715_j6158983102956_1_alg».proof.Proof.RefSide

set_option maxRecDepth 16384

noncomputable section

namespace Cert.KernelIdeal.Bridge

open Idealize.ShloMosaic Idealize.ShloMosaic.TcCoe Idealize.ShloMosaic.Tactic Idealize.SL.Sem
open Idealize.ShloMosaic.Pipeline (Dat Cfg Window)
open Cert.KernelIdeal Cert.KernelIdeal.Gen
open Cert.ReferenceIdeal.Read (val_main_v4 val_main_v6 val_main_v7 val_main_v30 val_main_v43 val_main_v48 val_main_v87 val_main_v102)

variable (m : (ℓ : Loc nD τ sig) → Buf (Elt Ideal) ℓ) (ρ : Dev nD → PrngReg) (c : Dev nD)

/-! ## The arguments, untouched by the opening stretches -/

theorem W3_arg0 : W3 m ρ c (Proc.devRef .tc main_arg0) = m ((c : Thread nD τ).loc main_arg0) :=
  ((StableHlo.after_of_forall_not_mem (b := Proc.devRef .tc main_arg0) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
    ((StableHlo.after_of_forall_not_mem (b := Proc.devRef .tc main_arg0) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
      (StableHlo.after_of_forall_not_mem (b := Proc.devRef .tc main_arg0) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))))).trans rfl

theorem W3_arg2 : W3 m ρ c (Proc.devRef .tc main_arg2) = m ((c : Thread nD τ).loc main_arg2) :=
  ((StableHlo.after_of_forall_not_mem (b := Proc.devRef .tc main_arg2) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
    ((StableHlo.after_of_forall_not_mem (b := Proc.devRef .tc main_arg2) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
      (StableHlo.after_of_forall_not_mem (b := Proc.devRef .tc main_arg2) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))))).trans rfl

theorem W3_arg3 : W3 m ρ c (Proc.devRef .tc main_arg3) = m ((c : Thread nD τ).loc main_arg3) :=
  ((StableHlo.after_of_forall_not_mem (b := Proc.devRef .tc main_arg3) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
    ((StableHlo.after_of_forall_not_mem (b := Proc.devRef .tc main_arg3) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
      (StableHlo.after_of_forall_not_mem (b := Proc.devRef .tc main_arg3) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))))).trans rfl

theorem W3_arg4 : W3 m ρ c (Proc.devRef .tc main_arg4) = m ((c : Thread nD τ).loc main_arg4) :=
  ((StableHlo.after_of_forall_not_mem (b := Proc.devRef .tc main_arg4) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
    ((StableHlo.after_of_forall_not_mem (b := Proc.devRef .tc main_arg4) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
      (StableHlo.after_of_forall_not_mem (b := Proc.devRef .tc main_arg4) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))))).trans rfl

theorem W3_arg5 : W3 m ρ c (Proc.devRef .tc main_arg5) = m ((c : Thread nD τ).loc main_arg5) :=
  ((StableHlo.after_of_forall_not_mem (b := Proc.devRef .tc main_arg5) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
    ((StableHlo.after_of_forall_not_mem (b := Proc.devRef .tc main_arg5) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
      (StableHlo.after_of_forall_not_mem (b := Proc.devRef .tc main_arg5) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))))).trans rfl

/-! ## After the opening stretches: the edge lists and the edge weights -/

theorem W3_v5 : W3 m ρ c (Proc.devRef .tc main_v5) = val_main_v6 (m ((c : Thread nD τ).loc main_arg1)) := by
  show StableHlo.after hostOps0_2 (StableHlo.after hostOps0_1 (StableHlo.after hostOps0 (W0 m ρ c))) (Proc.devRef .tc main_v5) = _
  after_results
  rfl

theorem W3_v6 : W3 m ρ c (Proc.devRef .tc main_v6) = val_main_v7 (m ((c : Thread nD τ).loc main_arg1)) := by
  show StableHlo.after hostOps0_2 (StableHlo.after hostOps0_1 (StableHlo.after hostOps0 (W0 m ρ c))) (Proc.devRef .tc main_v6) = _
  after_results
  rfl

/-- The middle stretch is the where of the normalisation (deg > 0 ? deg^(-1/2) : 0), a called function: read over ANY
    contents F it selects between F's buffers; the transports its operations carry are the identity. -/
theorem where_stretch (F : Valuation τ sig (Elt Ideal)) :
    StableHlo.after hostOps0_1 F (Proc.devRef .tc main_v14)
      = select (F (Proc.devRef .tc main_v12) : IVec S100000 1) (F (Proc.devRef .tc main_v13) : FVec Ideal S100000 .f32)
          (broadcastInDim S100000 (![] : Fin 0 → Fin S100000.rank) bcast_S_S100000 (F (Proc.devRef .tc main_cst_2) : FVec Ideal S_ .f32)) := by
  after_results
  rfl

theorem W1_v12 : W1 m ρ c (Proc.devRef .tc main_v12) = Cert.ReferenceIdeal.Read.val_main_v13 (m ((c : Thread nD τ).loc main_arg1)) := by
  show StableHlo.after hostOps0 (W0 m ρ c) (Proc.devRef .tc main_v12) = _
  after_results
  rfl

theorem W1_v13 : W1 m ρ c (Proc.devRef .tc main_v13) = Cert.ReferenceIdeal.Read.val_main_v14 (m ((c : Thread nD τ).loc main_arg1)) := by
  show StableHlo.after hostOps0 (W0 m ρ c) (Proc.devRef .tc main_v13) = _
  after_results
  rfl

theorem W1_cst_2 : W1 m ρ c (Proc.devRef .tc main_cst_2) = Cert.ReferenceIdeal.Read.val_main_cst_2 (F := Ideal) := by
  show StableHlo.after hostOps0 (W0 m ρ c) (Proc.devRef .tc main_cst_2) = _
  after_results
  rfl

/-- deg^(-1/2) where the degree is positive, else 0. -/
theorem W2_v14 : W2 m ρ c (Proc.devRef .tc main_v14) = Cert.ReferenceIdeal.Read.val_main_v15 (m ((c : Thread nD τ).loc main_arg1)) :=
  (where_stretch (W1 m ρ c)).trans (by
    rw [W1_v12 m ρ c, W1_v13 m ρ c, W1_cst_2 m ρ c]
    rfl)

theorem W2_v5 : W2 m ρ c (Proc.devRef .tc main_v5) = val_main_v6 (m ((c : Thread nD τ).loc main_arg1)) :=
  (StableHlo.after_of_forall_not_mem (b := Proc.devRef .tc main_v5) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans (by
    show StableHlo.after hostOps0 (W0 m ρ c) (Proc.devRef .tc main_v5) = _
    after_results
    rfl)

theorem W2_v6 : W2 m ρ c (Proc.devRef .tc main_v6) = val_main_v7 (m ((c : Thread nD τ).loc main_arg1)) :=
  (StableHlo.after_of_forall_not_mem (b := Proc.devRef .tc main_v6) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans (by
    show StableHlo.after hostOps0 (W0 m ρ c) (Proc.devRef .tc main_v6) = _
    after_results
    rfl)

set_option maxHeartbeats 4000000 in
/-- The edge weights dinv[source] · dinv[target]. -/
theorem W3_v29 : W3 m ρ c (Proc.devRef .tc main_v29) = val_main_v30 (m ((c : Thread nD τ).loc main_arg1)) := by
  show StableHlo.after hostOps0_2 (W2 m ρ c) (Proc.devRef .tc main_v29) = _
  generalize hF : W2 m ρ c = F
  after_results
  subst hF
  rw [W2_v14 m ρ c, W2_v5 m ρ c, W2_v6 m ρ c]
  rfl

/-! ## The first region and the stretch after it -/

theorem W4_v30 : W4 m ρ c (Proc.devRef .tc main_v30) = val_main_v4 (m ((c : Thread nD τ).loc main_arg0)) (m ((c : Thread nD τ).loc main_arg2)) :=
  (W4_arr m ρ c 2).trans ((Proj1.result (V3 m ρ) c).trans
    ((congrArg₂ Proj1.xW (W3_arg0 m ρ c) (W3_arg2 m ρ c)).trans (Cert.ReferenceIdeal.RefSide.v4_eq _ _).symm))

theorem W4_v5 : W4 m ρ c (Proc.devRef .tc main_v5) = val_main_v6 (m ((c : Thread nD τ).loc main_arg1)) :=
  (W4_of_ne m ρ c main_v5 (by decide)).trans (W3_v5 m ρ c)
theorem W4_v6 : W4 m ρ c (Proc.devRef .tc main_v6) = val_main_v7 (m ((c : Thread nD τ).loc main_arg1)) :=
  (W4_of_ne m ρ c main_v6 (by decide)).trans (W3_v6 m ρ c)
theorem W4_v29 : W4 m ρ c (Proc.devRef .tc main_v29) = val_main_v30 (m ((c : Thread nD τ).loc main_arg1)) :=
  (W4_of_ne m ρ c main_v29 (by decide)).trans (W3_v29 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

set_option maxHeartbeats 4000000 in
/-- The first aggregation. -/
theorem W5_v43 : W5 m ρ c (Proc.devRef .tc main_v43) = val_main_v43 (m ((c : Thread nD τ).loc main_arg0)) (m ((c : Thread nD τ).loc main_arg1)) (m ((c : Thread nD τ).loc main_arg2)) := by
  show StableHlo.after hostOps1 (W4 m ρ c) (Proc.devRef .tc main_v43) = _
  after_results
  rw [W4_v6 m ρ c, W4_v30 m ρ c, W4_v5 m ρ c, W4_v29 m ρ c]
  rfl

/-- b1 as one row. -/
theorem W5_v44 : W5 m ρ c (Proc.devRef .tc main_v44) = shapeCast S1x64 (m ((c : Thread nD τ).loc main_arg3)) shapeCasts_S64_S1x64 := by
  show StableHlo.after hostOps1 (W4 m ρ c) (Proc.devRef .tc main_v44) = _
  after_results
  rw [W4_arg3 m ρ c]
  rfl

theorem W5_arg4 : W5 m ρ c (Proc.devRef .tc main_arg4) = m ((c : Thread nD τ).loc main_arg4) :=
  (StableHlo.after_of_forall_not_mem (b := Proc.devRef .tc main_arg4) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans (W4_arg4 m ρ c)

/-! ## The second region and the stretch after it -/

theorem W6_v45 : W6 m ρ c (Proc.devRef .tc main_v45)
    = val_main_v48 (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans ((Proj2.result (V5 m ρ) c).trans (by
    rw [show V5 m ρ c main_v43 = _ from W5_v43 m ρ c, show V5 m ρ c main_v44 = _ from W5_v44 m ρ c,
      show V5 m ρ c main_arg4 = _ from W5_arg4 m ρ c]
    exact (Cert.ReferenceIdeal.RefSide.v48_eq _ _ _ _ _ shapeCasts_S64_S1x64).symm))

theorem W6_v5 : W6 m ρ c (Proc.devRef .tc main_v5) = val_main_v6 (m ((c : Thread nD τ).loc main_arg1)) :=
  (W6_of_ne m ρ c main_v5 (by decide)).trans
    ((StableHlo.after_of_forall_not_mem (b := Proc.devRef .tc main_v5) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans (W4_v5 m ρ c))
theorem W6_v6 : W6 m ρ c (Proc.devRef .tc main_v6) = val_main_v7 (m ((c : Thread nD τ).loc main_arg1)) :=
  (W6_of_ne m ρ c main_v6 (by decide)).trans
    ((StableHlo.after_of_forall_not_mem (b := Proc.devRef .tc main_v6) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans (W4_v6 m ρ c))
theorem W6_v29 : W6 m ρ c (Proc.devRef .tc main_v29) = val_main_v30 (m ((c : Thread nD τ).loc main_arg1)) :=
  (W6_of_ne m ρ c main_v29 (by decide)).trans
    ((StableHlo.after_of_forall_not_mem (b := Proc.devRef .tc main_v29) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans (W4_v29 m ρ c))
theorem W6_arg5 : W6 m ρ c (Proc.devRef .tc main_arg5) = m ((c : Thread nD τ).loc main_arg5) :=
  (W6_of_ne m ρ c main_arg5 (by decide)).trans
    ((StableHlo.after_of_forall_not_mem (b := Proc.devRef .tc main_arg5) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans (W4_arg5 m ρ c))

set_option maxHeartbeats 4000000 in
/-- The second aggregation: with the same edge lists and weights as the first (the reference computes them again). -/
theorem W7_v58 : W7 m ρ c (Proc.devRef .tc main_v58)
    = val_main_v87 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v58) = _
  after_results
  rw [W6_v6 m ρ c, W6_v45 m ρ c, W6_v5 m ρ c, W6_v29 m ρ c]
  rfl

/-- b2 as one row. -/
theorem W7_v59 : W7 m ρ c (Proc.devRef .tc main_v59) = shapeCast S1x40 (m ((c : Thread nD τ).loc main_arg5)) shapeCasts_S40_S1x40 := by
  show StableHlo.after hostOps2 (W6 m ρ c) (Proc.devRef .tc main_v59) = _
  after_results
  rw [W6_arg5 m ρ c]
  rfl

/-! ## The last region -/

/-- THE KERNEL PROGRAM'S RESULT: the result buffer ends at the reference's last stage function of the six arguments. -/
theorem result : W8 m ρ c (Proc.devRef .tc main_v60)
    = val_main_v102 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 2).trans ((Lsm.result (V7 m ρ) c).trans (by
    rw [show V7 m ρ c main_v58 = _ from W7_v58 m ρ c, show V7 m ρ c main_v59 = _ from W7_v59 m ρ c]
    exact (Cert.ReferenceIdeal.RefSide.v102_eq _ _ _ _ _ _ shapeCasts_S40_S1x40).symm))

end Cert.KernelIdeal.Bridge

end
-- ==== Proof.LibLineOfOps.lean ====
/-
  A straight line of host operations in which every operation writes one buffer of its own (as a printed @main does:
  each tensor value has its buffer), read one operation at a time.

  `after ops V` is what the buffers hold once the line has run from the contents `V`.  If the k-th operation writes
  exactly the k-th reference of a list `wr`, then a reference that is not written from position k on holds, after the
  whole line, what it holds after the first k operations; so the k-th operation's result buffer holds, after the whole
  line, the operation's function of what its operand buffers hold after the whole line (operands are written earlier,
  the result by no later operation).  Each side condition is a non-membership in a literal list of references.
-/
import Idealize.ShloMosaic.Lib.StableHlo.Run
import Mathlib.Data.List.Forall2

noncomputable section

namespace Idealize.ShloMosaic.StableHlo

open Idealize.ShloMosaic.TcCoe

variable {τ : Topo} {sig : RefSig} {Val : EltTy → Type}

/-- The line run in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a line related entry by entry to a list has its partner in the list. -/
theorem exists_of_forall₂_mem {α β : Type*} {R : α → β → Prop} :
    ∀ {l₁ : List α} {l₂ : List β}, List.Forall₂ R l₁ l₂ → ∀ a ∈ l₁, ∃ b ∈ l₂, R a b
  | _, _, .nil, a, ha => absurd ha List.not_mem_nil
  | _, _, .cons hab h, a, ha => by
    rcases List.mem_cons.mp ha with rfl | ha
    · exact ⟨_, List.mem_cons_self, hab⟩
    · obtain ⟨b, hb, hr⟩ := exists_of_forall₂_mem h a ha
      exact ⟨b, List.mem_cons_of_mem _ hb, hr⟩

/-- "The k-th operation writes exactly the k-th reference." -/
abbrev WritesEach (ops : List (HloOp τ sig Val)) (wr : List (Ref sig .tc)) : Prop :=
  List.Forall₂ (fun (op : HloOp τ sig Val) (r : Ref sig .tc) => op.writes = {Proc.devRef .tc r}) ops wr

variable {ops : List (HloOp τ sig Val)} {wr : List (Ref sig .tc)}

/-- A reference not written from position `k` on holds after the line what it holds after the first `k` operations. -/
theorem after_eq_after_take (h : WritesEach ops wr) (V : Valuation τ sig Val) (k : ℕ) (r : Ref sig .tc)
    (hr : r ∉ wr.drop k) : after ops V (Proc.devRef .tc r) = after (ops.take k) V (Proc.devRef .tc r) := by
  have h' := List.forall₂_drop k h
  have e : after ops V = after (ops.drop k) (after (ops.take k) V) := by
    rw [← after_append, List.take_append_drop]
  rw [e]
  refine after_of_forall_not_mem _ _ fun op hop hb => ?_
  obtain ⟨r', hr', hw⟩ := exists_of_forall₂_mem h' op hop
  rw [hw, Finset.mem_singleton] at hb
  exact hr (Proc.devRef_injective _ hb ▸ hr')

/-- A reference the line never writes keeps its launch contents. -/
theorem after_of_not_written (h : WritesEach ops wr) (V : Valuation τ sig Val) (r : Ref sig .tc) (hr : r ∉ wr) :
    after ops V (Proc.devRef .tc r) = V (Proc.devRef .tc r) :=
  (after_eq_after_take h V 0 r hr).trans rfl

/-- The k-th operation's result buffer, not written later, holds what the operation leaves there. -/
theorem after_at (h : WritesEach ops wr) (V : Valuation τ sig Val) (k : ℕ) (op : HloOp τ sig Val) (y : Ref sig .tc)
    (hk : ops[k]? = some op) (hy : y ∉ wr.drop (k + 1)) :
    after ops V (Proc.devRef .tc y) = op.result (after (ops.take k) V) (Proc.devRef .tc y) := by
  rw [after_eq_after_take h V (k + 1) y hy]
  have e : ops.take (k + 1) = ops.take k ++ [op] := by rw [List.take_succ, hk]; rfl
  rw [e, after_append]
  rfl

theorem after_nullary (h : WritesEach ops wr) (V : Valuation τ sig Val) (k : ℕ) (y : Ref sig .tc) (v : y.ty.Contents Val)
    (hy) (hk : ops[k]? = some (nullary y v hy)) (hy' : y ∉ wr.drop (k + 1)) :
    after ops V (Proc.devRef .tc y) = v := by
  rw [after_at h V k _ y hk hy']
  exact nullary_result y v hy _

theorem after_unary (h : WritesEach ops wr) (V : Valuation τ sig Val) (k : ℕ) (x y : Ref sig .tc)
    (f : x.ty.Contents Val → y.ty.Contents Val) (hx hy) (hk : ops[k]? = some (unary x y f hx hy))
    (hy' : y ∉ wr.drop (k + 1)) (hx' : x ∉ wr.drop k) :
    after ops V (Proc.devRef .tc y) = f (after ops V (Proc.devRef .tc x)) := by
  rw [after_at h V k _ y hk hy', after_eq_after_take h V k x hx']
  exact unary_result x y f hx hy _

theorem after_binary (h : WritesEach ops wr) (V : Valuation τ sig Val) (k : ℕ) (a b y : Ref sig .tc)
    (f : a.ty.Contents Val → b.ty.Contents Val → y.ty.Contents Val) (ha hb hy)
    (hk : ops[k]? = some (binary a b y f ha hb hy))
    (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k _ y hk hy', after_eq_after_take h V k a ha', after_eq_after_take h V k b hb']
  exact binary_result a b y f ha hb hy _

theorem after_ternary (h : WritesEach ops wr) (V : Valuation τ sig Val) (k : ℕ) (c a b y : Ref sig .tc)
    (f : c.ty.Contents Val → a.ty.Contents Val → b.ty.Contents Val → y.ty.Contents Val) (hc ha hb hy)
    (hk : ops[k]? = some (ternary c a b y f hc ha hb hy))
    (hy' : y ∉ wr.drop (k + 1)) (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V k _ y hk hy', after_eq_after_take h V k c hc', after_eq_after_take h V k a ha',
    after_eq_after_take h V k b hb']
  exact ternary_result c a b y f hc ha hb hy _

theorem after_reshape (h : WritesEach ops wr) (V : Valuation τ sig Val) (k : ℕ) (x y : Ref sig .tc)
    (he : x.ty.elt = y.ty.elt) (hn : x.ty.shape.ShapeCasts y.ty.shape) (hx hy)
    (hk : ops[k]? = some (reshape x y he hn hx hy)) (hy' : y ∉ wr.drop (k + 1)) (hx' : x ∉ wr.drop k) :
    after ops V (Proc.devRef .tc y)
      = fun i => he ▸ shapeCast y.ty.shape (after ops V (Proc.devRef .tc x)) hn i := by
  rw [after_at h V k _ y hk hy', after_eq_after_take h V k x hx']
  exact reshape_result x y he hn hx hy _

theorem after_nary4 (h : WritesEach ops wr) (V : Valuation τ sig Val) (k : ℕ) (x a b c y : Ref sig .tc)
    (f : ((j : Fin 4) → ((![x, a, b, c] : Fin 4 → Ref sig .tc) j).ty.Contents Val) → y.ty.Contents Val) (hxs hy)
    (hk : ops[k]? = some (nary ![x, a, b, c] y f hxs hy)) (hy' : y ∉ wr.drop (k + 1))
    (hx' : x ∉ wr.drop k) (ha' : a ∉ wr.drop k) (hb' : b ∉ wr.drop k) (hc' : c ∉ wr.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ y hk hy', after_eq_after_take h V k x hx', after_eq_after_take h V k a ha',
    after_eq_after_take h V k b hb', after_eq_after_take h V k c hc']
  exact nary4_result f hxs hy _

end Idealize.ShloMosaic.StableHlo

end
-- ==== Proof.RefRunOf.lean ====
/-
  The reference program's run.  Its @main is a straight line of 148 host operations, each writing a buffer of its
  own: the edge lists with self loops, the degrees and the symmetric normalisation, x·W1, the first aggregation
  (gather by source, scale, sum by target) plus b1, the positive part, the product with W2, the normalisation
  again, the second aggregation plus b2, the softmax of every row and its log-softmax.  Every weakly fair
  execution terminates with every buffer at the fold of the operations over the launch contents; that fold is read
  here one operation at a time, each value where it is written (operands are written earlier, the result by no
  later operation), stage by stage in program order: after the whole line each buffer holds its stage function of
  the six arguments.  A value with several consumers gets a lemma of its own, so nothing is read twice.  An operation of a
  called function (the where, the relu, the log_softmax) is stated over typed references, its function wrapped in
  transports along type equalities that are the identity here: its step names the bare function, so that no transport
  is left in a stage's term — except at the log_softmax's row maximum, whose function is a fold over the whole array:
  that step takes the wrapped function as it is and the transports are taken off by `strip_row_max`.
-/
import proofs.«110715_j6158983102956_1_alg».proof.Proof.RefRead
import proofs.«110715_j6158983102956_1_alg».proof.Proof.LibLineOfOps

set_option maxRecDepth 16384

noncomputable section

namespace Cert.ReferenceIdeal.RunOf

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- The buffers the 148 operations write, in program order. -/
abbrev written : List (Ref sig .tc) :=
  [ main_v0, main_v1, main_v2, main_v3, main_v4, main_v5, main_v6, main_v7, main_cst, main_v8,
    main_cst_0, main_v9, main_v10, main_v11, main_cst_1, main_v12, main_v13, main_v14, main_cst_2, main_call0_v0,
    main_call0_v1, main_v15, main_c, main_v16, main_v17, main_c_3, main_v18, main_v19, main_v20, main_v21,
    main_v22, main_c_4, main_v23, main_v24, main_c_5, main_v25, main_v26, main_v27, main_v28, main_v29,
    main_v30, main_c_6, main_v31, main_v32, main_c_7, main_v33, main_v34, main_v35, main_v36, main_v37,
    main_v38, main_v39, main_v40, main_cst_8, main_v41, main_v42, main_v43, main_v44, main_v45, main_v46,
    main_call1_cst, main_call1_v0, main_v47, main_v48, main_v49, main_v50, main_v51, main_cst_9, main_v52, main_cst_10,
    main_v53, main_v54, main_v55, main_cst_11, main_v56, main_v57, main_v58, main_cst_12, main_call2_v0, main_call2_v1,
    main_v59, main_c_13, main_v60, main_v61, main_c_14, main_v62, main_v63, main_v64, main_v65, main_v66,
    main_c_15, main_v67, main_v68, main_c_16, main_v69, main_v70, main_v71, main_v72, main_v73, main_v74,
    main_c_17, main_v75, main_v76, main_c_18, main_v77, main_v78, main_v79, main_v80, main_v81, main_v82,
    main_v83, main_v84, main_cst_19, main_v85, main_v86, main_v87, main_v88, main_v89, main_v90, main_cst_20,
    main_v91, main_cst_21, main_v92, main_v93, main_v94, main_v95, main_v96, main_v97, main_cst_22, main_v98,
    main_v99, main_v100, main_v101, main_call3_cst, main_call3_v0, main_call3_cst_0, main_call3_v1, main_call3_v2, main_call3_v3, main_call3_v4,
    main_call3_v5, main_call3_v6, main_call3_cst_1, main_call3_v7, main_call3_v8, main_call3_v9, main_call3_v10, main_v102 ]

set_option maxHeartbeats 4000000 in
/-- The k-th operation writes exactly the k-th of them. -/
theorem writes : WritesEach (ops (F := Ideal)) written := by
  repeat' (first | exact List.Forall₂.nil | refine List.Forall₂.cons rfl ?_)

variable (V : Valuation τ sig (Elt Ideal))

/-! ## The arguments are never written -/

theorem at_arg0 : after ops V (Proc.devRef .tc main_arg0) = V (Proc.devRef .tc main_arg0) :=
  after_of_not_written writes V main_arg0 (by decide)
theorem at_arg1 : after ops V (Proc.devRef .tc main_arg1) = V (Proc.devRef .tc main_arg1) :=
  after_of_not_written writes V main_arg1 (by decide)
theorem at_arg2 : after ops V (Proc.devRef .tc main_arg2) = V (Proc.devRef .tc main_arg2) :=
  after_of_not_written writes V main_arg2 (by decide)
theorem at_arg3 : after ops V (Proc.devRef .tc main_arg3) = V (Proc.devRef .tc main_arg3) :=
  after_of_not_written writes V main_arg3 (by decide)
theorem at_arg4 : after ops V (Proc.devRef .tc main_arg4) = V (Proc.devRef .tc main_arg4) :=
  after_of_not_written writes V main_arg4 (by decide)
theorem at_arg5 : after ops V (Proc.devRef .tc main_arg5) = V (Proc.devRef .tc main_arg5) :=
  after_of_not_written writes V main_arg5 (by decide)

/-! ## The stages, in program order -/

/-- The log_softmax's row maximum is an operation of a called function whose function is a fold over the whole array:
    there the transports around it (the identity, the references being literal) are taken off by this equation, stated for
    ANY function G of the two operands, and used at the fold. -/
theorem strip_row_max
    (G : (⟨S100000x40, .f32⟩ : BufTy).Contents (Elt Ideal) → (⟨S_, .f32⟩ : BufTy).Contents (Elt Ideal) → (⟨S100000, .f32⟩ : BufTy).Contents (Elt Ideal))
    (u : main_v101.ty.Contents (Elt Ideal)) (v : main_call3_cst.ty.Contents (Elt Ideal)) :
    (TRef.of (T := ⟨S100000, .f32⟩) main_call3_v0).toBuf
        (G ((TRef.of (T := ⟨S100000x40, .f32⟩) main_v101).ofBuf u) ((TRef.of (T := ⟨S_, .f32⟩) main_call3_cst).ofBuf v))
      = G u v := rfl

/-- the edges' sources. -/
theorem at_v1 : after ops V (Proc.devRef .tc main_v1) = val_main_v1 (V (Proc.devRef .tc main_arg1)) := by
  rw [after_reshape writes V 1 _ _ _ _ _ _ rfl (by decide) (by decide),
    after_unary writes V 0 _ _ _ _ _ rfl (by decide) (by decide),
    at_arg1 V]
  rfl

/-- the edges' targets. -/
theorem at_v3 : after ops V (Proc.devRef .tc main_v3) = val_main_v3 (V (Proc.devRef .tc main_arg1)) := by
  rw [after_reshape writes V 3 _ _ _ _ _ _ rfl (by decide) (by decide),
    after_unary writes V 2 _ _ _ _ _ rfl (by decide) (by decide),
    at_arg1 V]
  rfl

/-- the node numbers (for the self loops). -/
theorem at_v5 : after ops V (Proc.devRef .tc main_v5) = val_main_v5 := by
  rw [after_nullary writes V 5 _ _ _ rfl (by decide)]
  rfl

/-- the sources with the self loops appended. -/
theorem at_v6 : after ops V (Proc.devRef .tc main_v6) = val_main_v6 (V (Proc.devRef .tc main_arg1)) := by
  rw [after_binary writes V 6 _ _ _ _ _ _ _ rfl (by decide) (by decide) (by decide),
    at_v1 V,
    at_v5 V]
  rfl

/-- the targets with the self loops appended. -/
theorem at_v7 : after ops V (Proc.devRef .tc main_v7) = val_main_v7 (V (Proc.devRef .tc main_arg1)) := by
  rw [after_binary writes V 7 _ _ _ _ _ _ _ rfl (by decide) (by decide) (by decide),
    at_v3 V,
    at_v5 V]
  rfl

/-- the degrees: a sum of ones scattered by target. -/
theorem at_v11 : after ops V (Proc.devRef .tc main_v11) = val_main_v11 (V (Proc.devRef .tc main_arg1)) := by
  rw [after_ternary writes V 13 _ _ _ _ _ _ _ _ _ rfl (by decide) (by decide) (by decide) (by decide),
    after_unary writes V 12 _ _ _ _ _ rfl (by decide) (by decide),
    after_unary writes V 11 _ _ _ _ _ rfl (by decide) (by decide),
    after_nullary writes V 10 _ _ _ rfl (by decide),
    after_unary writes V 9 _ _ _ _ _ rfl (by decide) (by decide),
    after_nullary writes V 8 _ _ _ rfl (by decide),
    at_v7 V]
  rfl

/-- deg^(-1/2) where the degree is positive, else 0. -/
theorem at_v15 : after ops V (Proc.devRef .tc main_v15) = val_main_v15 (V (Proc.devRef .tc main_arg1)) := by
  rw [after_ternary writes V 21 main_v13 main_v14 main_call0_v1 main_v15 select _ _ _ _ rfl (by decide) (by decide) (by decide) (by decide),
    after_unary writes V 20 main_call0_v0 main_call0_v1 (broadcastInDim S100000 ![] bcast_S_S100000) _ _ rfl (by decide) (by decide),
    after_unary writes V 19 main_cst_2 main_call0_v0 id _ _ rfl (by decide) (by decide),
    after_nullary writes V 18 _ _ _ rfl (by decide),
    after_unary writes V 17 _ _ _ _ _ rfl (by decide) (by decide),
    after_binary writes V 16 _ _ _ _ _ _ _ rfl (by decide) (by decide) (by decide),
    after_unary writes V 15 _ _ _ _ _ rfl (by decide) (by decide),
    after_nullary writes V 14 _ _ _ rfl (by decide),
    at_v11 V]
  rfl

/-- the edge weights dinv[source] · dinv[target]. -/
theorem at_v30 : after ops V (Proc.devRef .tc main_v30) = val_main_v30 (V (Proc.devRef .tc main_arg1)) := by
  rw [after_binary writes V 40 _ _ _ _ _ _ _ rfl (by decide) (by decide) (by decide),
    after_binary writes V 39 _ _ _ _ _ _ _ rfl (by decide) (by decide) (by decide),
    after_unary writes V 38 _ _ _ _ _ rfl (by decide) (by decide),
    after_ternary writes V 37 _ _ _ _ _ _ _ _ _ rfl (by decide) (by decide) (by decide) (by decide),
    after_binary writes V 36 _ _ _ _ _ _ _ rfl (by decide) (by decide) (by decide),
    after_unary writes V 35 _ _ _ _ _ rfl (by decide) (by decide),
    after_nullary writes V 34 _ _ _ rfl (by decide),
    after_binary writes V 33 _ _ _ _ _ _ _ rfl (by decide) (by decide) (by decide),
    after_unary writes V 32 _ _ _ _ _ rfl (by decide) (by decide),
    after_nullary writes V 31 _ _ _ rfl (by decide),
    after_binary writes V 30 _ _ _ _ _ _ _ rfl (by decide) (by decide) (by decide),
    after_unary writes V 29 _ _ _ _ _ rfl (by decide) (by decide),
    after_ternary writes V 28 _ _ _ _ _ _ _ _ _ rfl (by decide) (by decide) (by decide) (by decide),
    after_binary writes V 27 _ _ _ _ _ _ _ rfl (by decide) (by decide) (by decide),
    after_unary writes V 26 _ _ _ _ _ rfl (by decide) (by decide),
    after_nullary writes V 25 _ _ _ rfl (by decide),
    after_binary writes V 24 _ _ _ _ _ _ _ rfl (by decide) (by decide) (by decide),
    after_unary writes V 23 _ _ _ _ _ rfl (by decide) (by decide),
    after_nullary writes V 22 _ _ _ rfl (by decide),
    at_v15 V,
    at_v7 V,
    at_v6 V]
  rfl

/-- the first aggregation: rows of x·W1 gathered by source, scaled, summed by target. -/
theorem at_v43 : after ops V (Proc.devRef .tc main_v43) = val_main_v43 (V (Proc.devRef .tc main_arg0)) (V (Proc.devRef .tc main_arg1)) (V (Proc.devRef .tc main_arg2)) := by
  rw [after_ternary writes V 56 _ _ _ _ _ _ _ _ _ rfl (by decide) (by decide) (by decide) (by decide),
    after_unary writes V 55 _ _ _ _ _ rfl (by decide) (by decide),
    after_unary writes V 54 _ _ _ _ _ rfl (by decide) (by decide),
    after_nullary writes V 53 _ _ _ rfl (by decide),
    after_binary writes V 52 _ _ _ _ _ _ _ rfl (by decide) (by decide) (by decide),
    after_unary writes V 51 _ _ _ _ _ rfl (by decide) (by decide),
    after_unary writes V 50 _ _ _ _ _ rfl (by decide) (by decide),
    after_binary writes V 49 _ _ _ _ _ _ _ rfl (by decide) (by decide) (by decide),
    after_unary writes V 48 _ _ _ _ _ rfl (by decide) (by decide),
    after_ternary writes V 47 _ _ _ _ _ _ _ _ _ rfl (by decide) (by decide) (by decide) (by decide),
    after_binary writes V 46 _ _ _ _ _ _ _ rfl (by decide) (by decide) (by decide),
    after_unary writes V 45 _ _ _ _ _ rfl (by decide) (by decide),
    after_nullary writes V 44 _ _ _ rfl (by decide),
    after_binary writes V 43 _ _ _ _ _ _ _ rfl (by decide) (by decide) (by decide),
    after_unary writes V 42 _ _ _ _ _ rfl (by decide) (by decide),
    after_nullary writes V 41 _ _ _ rfl (by decide),
    after_binary writes V 4 _ _ _ _ _ _ _ rfl (by decide) (by decide) (by decide),
    at_v30 V,
    at_v6 V,
    at_arg0 V,
    at_arg2 V,
    at_v7 V]
  rfl

/-- the hidden layer max (agg + b1, 0) times W2. -/
theorem at_v48 : after ops V (Proc.devRef .tc main_v48) = val_main_v48 (V (Proc.devRef .tc main_arg0)) (V (Proc.devRef .tc main_arg1)) (V (Proc.devRef .tc main_arg2)) (V (Proc.devRef .tc main_arg3)) (V (Proc.devRef .tc main_arg4)) := by
  rw [after_binary writes V 63 _ _ _ _ _ _ _ rfl (by decide) (by decide) (by decide),
    after_binary writes V 62 main_v46 main_call1_v0 main_v47 (maximumf (F := Ideal)) _ _ _ rfl (by decide) (by decide) (by decide),
    after_unary writes V 61 main_call1_cst main_call1_v0 (broadcastInDim S100000x64 ![] bcast_S_S100000x64) _ _ rfl (by decide) (by decide),
    after_nullary writes V 60 main_call1_cst (constant (F := Ideal) S_ .f32 0x00000000#32) _ rfl (by decide),
    after_binary writes V 59 _ _ _ _ _ _ _ rfl (by decide) (by decide) (by decide),
    after_unary writes V 58 _ _ _ _ _ rfl (by decide) (by decide),
    after_unary writes V 57 _ _ _ _ _ rfl (by decide) (by decide),
    at_arg4 V,
    at_v43 V,
    at_arg3 V]
  rfl

/-- the node numbers again (the second layer recomputes the normalisation). -/
theorem at_v49 : after ops V (Proc.devRef .tc main_v49) = val_main_v49 := by
  rw [after_nullary writes V 64 _ _ _ rfl (by decide)]
  rfl

/-- the sources with the self loops appended, again. -/
theorem at_v50 : after ops V (Proc.devRef .tc main_v50) = val_main_v50 (V (Proc.devRef .tc main_arg1)) := by
  rw [after_binary writes V 65 _ _ _ _ _ _ _ rfl (by decide) (by decide) (by decide),
    at_v1 V,
    at_v49 V]
  rfl

/-- the targets with the self loops appended, again. -/
theorem at_v51 : after ops V (Proc.devRef .tc main_v51) = val_main_v51 (V (Proc.devRef .tc main_arg1)) := by
  rw [after_binary writes V 66 _ _ _ _ _ _ _ rfl (by decide) (by decide) (by decide),
    at_v3 V,
    at_v49 V]
  rfl

/-- the degrees, again. -/
theorem at_v55 : after ops V (Proc.devRef .tc main_v55) = val_main_v55 (V (Proc.devRef .tc main_arg1)) := by
  rw [after_ternary writes V 72 _ _ _ _ _ _ _ _ _ rfl (by decide) (by decide) (by decide) (by decide),
    after_unary writes V 71 _ _ _ _ _ rfl (by decide) (by decide),
    after_unary writes V 70 _ _ _ _ _ rfl (by decide) (by decide),
    after_nullary writes V 69 _ _ _ rfl (by decide),
    after_unary writes V 68 _ _ _ _ _ rfl (by decide) (by decide),
    after_nullary writes V 67 _ _ _ rfl (by decide),
    at_v51 V]
  rfl

/-- deg^(-1/2) where positive, again. -/
theorem at_v59 : after ops V (Proc.devRef .tc main_v59) = val_main_v59 (V (Proc.devRef .tc main_arg1)) := by
  rw [after_ternary writes V 80 main_v57 main_v58 main_call2_v1 main_v59 select _ _ _ _ rfl (by decide) (by decide) (by decide) (by decide),
    after_unary writes V 79 main_call2_v0 main_call2_v1 (broadcastInDim S100000 ![] bcast_S_S100000) _ _ rfl (by decide) (by decide),
    after_unary writes V 78 main_cst_12 main_call2_v0 id _ _ rfl (by decide) (by decide),
    after_nullary writes V 77 _ _ _ rfl (by decide),
    after_unary writes V 76 _ _ _ _ _ rfl (by decide) (by decide),
    after_binary writes V 75 _ _ _ _ _ _ _ rfl (by decide) (by decide) (by decide),
    after_unary writes V 74 _ _ _ _ _ rfl (by decide) (by decide),
    after_nullary writes V 73 _ _ _ rfl (by decide),
    at_v55 V]
  rfl

/-- the edge weights, again. -/
theorem at_v74 : after ops V (Proc.devRef .tc main_v74) = val_main_v74 (V (Proc.devRef .tc main_arg1)) := by
  rw [after_binary writes V 99 _ _ _ _ _ _ _ rfl (by decide) (by decide) (by decide),
    after_binary writes V 98 _ _ _ _ _ _ _ rfl (by decide) (by decide) (by decide),
    after_unary writes V 97 _ _ _ _ _ rfl (by decide) (by decide),
    after_ternary writes V 96 _ _ _ _ _ _ _ _ _ rfl (by decide) (by decide) (by decide) (by decide),
    after_binary writes V 95 _ _ _ _ _ _ _ rfl (by decide) (by decide) (by decide),
    after_unary writes V 94 _ _ _ _ _ rfl (by decide) (by decide),
    after_nullary writes V 93 _ _ _ rfl (by decide),
    after_binary writes V 92 _ _ _ _ _ _ _ rfl (by decide) (by decide) (by decide),
    after_unary writes V 91 _ _ _ _ _ rfl (by decide) (by decide),
    after_nullary writes V 90 _ _ _ rfl (by decide),
    after_binary writes V 89 _ _ _ _ _ _ _ rfl (by decide) (by decide) (by decide),
    after_unary writes V 88 _ _ _ _ _ rfl (by decide) (by decide),
    after_ternary writes V 87 _ _ _ _ _ _ _ _ _ rfl (by decide) (by decide) (by decide) (by decide),
    after_binary writes V 86 _ _ _ _ _ _ _ rfl (by decide) (by decide) (by decide),
    after_unary writes V 85 _ _ _ _ _ rfl (by decide) (by decide),
    after_nullary writes V 84 _ _ _ rfl (by decide),
    after_binary writes V 83 _ _ _ _ _ _ _ rfl (by decide) (by decide) (by decide),
    after_unary writes V 82 _ _ _ _ _ rfl (by decide) (by decide),
    after_nullary writes V 81 _ _ _ rfl (by decide),
    at_v59 V,
    at_v51 V,
    at_v50 V]
  rfl

/-- the second aggregation. -/
theorem at_v87 : after ops V (Proc.devRef .tc main_v87) = val_main_v87 (V (Proc.devRef .tc main_arg0)) (V (Proc.devRef .tc main_arg1)) (V (Proc.devRef .tc main_arg2)) (V (Proc.devRef .tc main_arg3)) (V (Proc.devRef .tc main_arg4)) := by
  rw [after_ternary writes V 115 _ _ _ _ _ _ _ _ _ rfl (by decide) (by decide) (by decide) (by decide),
    after_unary writes V 114 _ _ _ _ _ rfl (by decide) (by decide),
    after_unary writes V 113 _ _ _ _ _ rfl (by decide) (by decide),
    after_nullary writes V 112 _ _ _ rfl (by decide),
    after_binary writes V 111 _ _ _ _ _ _ _ rfl (by decide) (by decide) (by decide),
    after_unary writes V 110 _ _ _ _ _ rfl (by decide) (by decide),
    after_unary writes V 109 _ _ _ _ _ rfl (by decide) (by decide),
    after_binary writes V 108 _ _ _ _ _ _ _ rfl (by decide) (by decide) (by decide),
    after_unary writes V 107 _ _ _ _ _ rfl (by decide) (by decide),
    after_ternary writes V 106 _ _ _ _ _ _ _ _ _ rfl (by decide) (by decide) (by decide) (by decide),
    after_binary writes V 105 _ _ _ _ _ _ _ rfl (by decide) (by decide) (by decide),
    after_unary writes V 104 _ _ _ _ _ rfl (by decide) (by decide),
    after_nullary writes V 103 _ _ _ rfl (by decide),
    after_binary writes V 102 _ _ _ _ _ _ _ rfl (by decide) (by decide) (by decide),
    after_unary writes V 101 _ _ _ _ _ rfl (by decide) (by decide),
    after_nullary writes V 100 _ _ _ rfl (by decide),
    at_v74 V,
    at_v48 V,
    at_v50 V,
    at_v51 V]
  rfl

/-- the logits: the second aggregation plus b2. -/
theorem at_v90 : after ops V (Proc.devRef .tc main_v90) = val_main_v90 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_binary writes V 118 _ _ _ _ _ _ _ rfl (by decide) (by decide) (by decide),
    after_unary writes V 117 _ _ _ _ _ rfl (by decide) (by decide),
    after_unary writes V 116 _ _ _ _ _ rfl (by decide) (by decide),
    at_v87 V,
    at_arg5 V]
  rfl

/-- exp (logits - row maximum). -/
theorem at_v97 : after ops V (Proc.devRef .tc main_v97) = val_main_v97 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_unary writes V 127 _ _ _ _ _ rfl (by decide) (by decide),
    after_binary writes V 126 _ _ _ _ _ _ _ rfl (by decide) (by decide) (by decide),
    after_unary writes V 125 _ _ _ _ _ rfl (by decide) (by decide),
    after_unary writes V 124 _ _ _ _ _ rfl (by decide) (by decide),
    after_binary writes V 123 _ _ _ _ _ _ _ rfl (by decide) (by decide) (by decide),
    after_unary writes V 122 _ _ _ _ _ rfl (by decide) (by decide),
    after_nullary writes V 121 _ _ _ rfl (by decide),
    after_binary writes V 120 _ _ _ _ _ _ _ rfl (by decide) (by decide) (by decide),
    after_nullary writes V 119 _ _ _ rfl (by decide),
    at_v90 V]
  rfl

/-- the softmax. -/
theorem at_v101 : after ops V (Proc.devRef .tc main_v101) = val_main_v101 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_binary writes V 132 _ _ _ _ _ _ _ rfl (by decide) (by decide) (by decide),
    after_unary writes V 131 _ _ _ _ _ rfl (by decide) (by decide),
    after_unary writes V 130 _ _ _ _ _ rfl (by decide) (by decide),
    after_binary writes V 129 _ _ _ _ _ _ _ rfl (by decide) (by decide) (by decide),
    after_nullary writes V 128 _ _ _ rfl (by decide),
    at_v97 V]
  rfl

/-- the softmax minus its row maximum. -/
theorem at_call3_v5 : after ops V (Proc.devRef .tc main_call3_v5) = val_main_call3_v5 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_binary writes V 140 main_v101 main_call3_v4 main_call3_v5 (subf (F := Ideal)) _ _ _ rfl (by decide) (by decide) (by decide),
    after_unary writes V 139 main_call3_v3 main_call3_v4 (broadcastInDim S100000x40 ![0, 1] bcast_S100000x1_S100000x40_0_1) _ _ rfl (by decide) (by decide),
    after_unary writes V 138 main_call3_v2 main_call3_v3 (broadcastInDim S100000x1 ![0] bcast_S100000_S100000x1_0) _ _ rfl (by decide) (by decide),
    after_binary writes V 137 main_call3_v1 main_call3_v0 main_call3_v2 (maximumf (F := Ideal)) _ _ _ rfl (by decide) (by decide) (by decide),
    after_unary writes V 136 main_call3_cst_0 main_call3_v1 (broadcastInDim S100000 ![] bcast_S_S100000) _ _ rfl (by decide) (by decide),
    after_nullary writes V 135 main_call3_cst_0 (constant (F := Ideal) S_ .f32 0xFF800000#32) _ rfl (by decide),
    after_binary writes V 134 _ _ _ _ _ _ _ rfl (by decide) (by decide) (by decide),
    strip_row_max (fun x v => Host.reduce (FloatOps.maximumf (F := Ideal)) x v reducesTo_S100000x40_S100000_d1 h_S_),
    after_nullary writes V 133 main_call3_cst (constant (F := Ideal) S_ .f32 0xFF800000#32) _ rfl (by decide),
    at_v101 V]
  rfl

/-- the result: the shifted softmax minus the logarithm of the row sum of its exponentials. -/
theorem at_v102 : after ops V (Proc.devRef .tc main_v102) = val_main_v102 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_binary writes V 147 main_call3_v5 main_call3_v10 main_v102 (subf (F := Ideal)) _ _ _ rfl (by decide) (by decide) (by decide),
    after_unary writes V 146 main_call3_v9 main_call3_v10 (broadcastInDim S100000x40 ![0, 1] bcast_S100000x1_S100000x40_0_1) _ _ rfl (by decide) (by decide),
    after_unary writes V 145 main_call3_v8 main_call3_v9 (Host.log (F := Ideal)) _ _ rfl (by decide) (by decide),
    after_unary writes V 144 main_call3_v7 main_call3_v8 (broadcastInDim S100000x1 ![0] bcast_S100000_S100000x1_0) _ _ rfl (by decide) (by decide),
    after_binary writes V 143 main_call3_v6 main_call3_cst_1 main_call3_v7 (fun x v => Host.reduceAdd (F := Ideal) x v reducesTo_S100000x40_S100000_d1 h_S_) _ _ _ rfl (by decide) (by decide) (by decide),
    after_nullary writes V 142 main_call3_cst_1 (constant (F := Ideal) S_ .f32 0x00000000#32) _ rfl (by decide),
    after_unary writes V 141 main_call3_v5 main_call3_v6 (Host.exp (F := Ideal)) _ _ rfl (by decide) (by decide),
    at_call3_v5 V]
  rfl

/-! ## The run -/

set_option maxHeartbeats 4000000 in
/-- Every weakly fair execution of the reference terminates, nothing faulting, with its result at the last stage's
    function of the six arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102)
        = val_main_v102 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v102).trans (at_v102 _),
      (h c main_arg0).trans (at_arg0 _), (h c main_arg1).trans (at_arg1 _), (h c main_arg2).trans (at_arg2 _),
      (h c main_arg3).trans (at_arg3 _), (h c main_arg4).trans (at_arg4 _), (h c main_arg5).trans (at_arg5 _)⟩)
    (run_seq scopedRefs_eq scopedSems_eq defs main (fun _ => ops) main_eq (fun _ => ops_sub) m ρ)

end Cert.ReferenceIdeal.RunOf

end
-- ==== Proof.lean ====
/-
  The two-layer graph convolution, kernel program against reference, on the extended reals.

  Both programs compute, for node features x, an edge list, weights W1, W2 and biases b1, b2: the edge weights
  n = dinv[source] · dinv[target] over the edges with a self loop appended per node (dinv = deg^(-1/2) where the degree,
  a sum of ones by target, is positive, else 0); the first layer  h = max (agg (x·W1) + b1, 0)  with  agg y  the rows
  of y gathered by source, scaled by n and summed by target; the second layer  z = agg (h·W2) + b2;  and of every row of
  z the softmax and then the log-softmax of that softmax.

  The reference is a straight line of host operations.  The kernel program keeps the aggregations on the host and
  runs three pipelined regions over ten row blocks: x·W1 (Proj1), max (· + b1, 0)·W2 (Proj2), and the bias, softmax
  and log-softmax of the rows (Lsm).  At the ideal values a narrowing of a product's factors is the identity and a
  matrix unit's product into a zero accumulator is the same sum as the host's, so the first two regions leave
  exactly the reference's two products in their result arrays; the aggregations between them are the same host
  operations on both sides (the reference computes the edge weights once per layer, the kernel program once: one
  term).  The last region subtracts the whole log-sum-exp at once, s - (max s + log ∑ exp (s - max s)), where the
  reference shifts first, (s - max s) - log ∑ exp (s - max s).  On the extended reals these agree because no entry
  of a softmax row is +∞ — an entry is e / ∑e with 0 ≤ e ≤ ∑e, never +∞ whatever the logits — so the maximum and
  the logarithm are not opposite infinities and the negation distributes (LogSoftmaxLaw).  Nothing here needs the
  inputs to be finite: the precondition is never opened.

  The frames: the kernel programs' are the generated frame certificates; the reference's is its run (RefRunOf) with
  the result dropped.  The idealization pass rewrote nothing, so there is nothing to preserve.
-/
import proofs.«110715_j6158983102956_1_alg».proof.Defs
import proofs.«110715_j6158983102956_1_alg».proof.Proof.Gen.Kernel
import proofs.«110715_j6158983102956_1_alg».proof.Proof.Gen.Kernel.Skeleton
import proofs.«110715_j6158983102956_1_alg».proof.Proof.Gen.Kernel.Launch
import proofs.«110715_j6158983102956_1_alg».proof.Proof.Gen.Kernel.Points
import proofs.«110715_j6158983102956_1_alg».proof.Proof.Gen.Kernel.Frame
import proofs.«110715_j6158983102956_1_alg».proof.Proof.Gen.KernelIdeal
import proofs.«110715_j6158983102956_1_alg».proof.Proof.Gen.KernelIdeal.Skeleton
import proofs.«110715_j6158983102956_1_alg».proof.Proof.Gen.KernelIdeal.Launch
import proofs.«110715_j6158983102956_1_alg».proof.Proof.Gen.KernelIdeal.Points
import proofs.«110715_j6158983102956_1_alg».proof.Proof.Gen.KernelIdeal.Frame
import proofs.«110715_j6158983102956_1_alg».proof.Proof.Gen.ReferenceIdeal
import proofs.«110715_j6158983102956_1_alg».proof.Proof.Gen.Pre_finite_inputs
import proofs.«110715_j6158983102956_1_alg».proof.Proof.KRun
import proofs.«110715_j6158983102956_1_alg».proof.Proof.KBridge
import proofs.«110715_j6158983102956_1_alg».proof.Proof.RefRunOf
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RunOf.run m ρ)

/-- The idealization pass rewrote no operation. -/
theorem preserves : Cert.preserves_Kernel_KernelIdeal := trivial

/-- From memories agreeing on the six arguments both programs end with their results at ONE function of the
    arguments: the reference's last stage, which the kernel program's result buffer reaches through its three
    regions (KBridge) and the reference's through its line of operations (RefRunOf). -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Bridge.result m ρ c), (h c).2⟩) (Cert.KernelIdeal.KRun.run m ρ)
  · refine (θ_run Cert.ReferenceIdeal.defs _ _).mono (fun r h c => ⟨?_, (h c).2⟩) (Cert.ReferenceIdeal.RunOf.run m' ρ')
    rw [(h c).1, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
